-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x512x512 .f32) (main_arg10 : FVec F S3x512 .f32) (main_arg11 : FVec F S512x10 .f32) (main_arg12 : FVec F S10 .f32) (main_v33 : IVec S_ 1) : IVec S_ 1 :=
  let main_v34 : FVec F S3x512x512 .f32 := Host.absf main_arg9
  let main_cst_12 : FVec F S_ .f32 := constant S_ .f32 0x7F800000#32
  let main_v35 : FVec F S3x512x512 .f32 := broadcastInDim S3x512x512 ![] bcast_S_S3x512x512 main_cst_12
  let main_v36 : IVec S3x512x512 1 := cmpf .olt main_v34 main_v35
  let main_c_13 : IVec S_ 1 := constantI S_ 1 1#1
  let main_v37 : IVec S_ 1 := (fun x v => Host.reduce IntOp.andi x v reducesTo_S3x512x512_S_d0_1_2 h_S_) main_v36 main_c_13
  let main_v38 : IVec S_ 1 := andi main_v33 main_v37
  let main_v39 : FVec F S3x512 .f32 := Host.absf main_arg10
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S512x10 .f32 := Host.absf main_arg11
  let main_cst_16 : FVec F S_ .f32 := constant S_ .f32 0x7F800000#32
  let main_v45 : FVec F S512x10 .f32 := broadcastInDim S512x10 ![] bcast_S_S512x10 main_cst_16
  let main_v46 : IVec S512x10 1 := cmpf .olt main_v44 main_v45
  let main_c_17 : IVec S_ 1 := constantI S_ 1 1#1
  let main_v47 : IVec S_ 1 := (fun x v => Host.reduce IntOp.andi x v reducesTo_S512x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S512 .f32) (main_arg7 : FVec F S3x512x512 .f32) (main_arg8 : FVec F S3x512 .f32) (main_arg9 : FVec F S3x512x512 .f32) (main_arg10 : FVec F S3x512 .f32) (main_arg11 : FVec F S512x10 .f32) (main_arg12 : FVec F S10 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S3x512x512 .f32 := Host.absf main_arg7
  let main_cst_8 : FVec F S_ .f32 := constant S_ .f32 0x7F800000#32
  let main_v25 : FVec F S3x512x512 .f32 := broadcastInDim S3x512x512 ![] bcast_S_S3x512x512 main_cst_8
  let main_v26 : IVec S3x512x512 1 := cmpf .olt main_v24 main_v25
  let main_c_9 : IVec S_ 1 := constantI S_ 1 1#1
  let main_v27 : IVec S_ 1 := (fun x v => Host.reduce IntOp.andi x v reducesTo_S3x512x512_S_d0_1_2 h_S_) main_v26 main_c_9
  let main_v28 : IVec S_ 1 := andi main_v23 main_v27
  let main_v29 : FVec F S3x512 .f32 := Host.absf main_arg8
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x128 .f32) (main_arg1 : IVec S2x160000 32) (main_arg2 : IVec S10000 32) (main_arg3 : FVec F S128x512 .f32) (main_arg4 : FVec F S512 .f32) (main_arg5 : FVec F S512x512 .f32) (main_arg6 : FVec F S512 .f32) (main_arg7 : FVec F S3x512x512 .f32) (main_arg8 : FVec F S3x512 .f32) (main_arg9 : FVec F S3x512x512 .f32) (main_arg10 : FVec F S3x512 .f32) (main_arg11 : FVec F S512x10 .f32) (main_arg12 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_v13 main_v16
-- ==== Kernel.lean ====
abbrev S10000x128 : Shape := ⟨2, ![10000, 128]⟩
abbrev S2x160000 : Shape := ⟨2, ![2, 160000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S10000x512 : Shape := ⟨2, ![10000, 512]⟩
abbrev S1000x128 : Shape := ⟨2, ![1000, 128]⟩
abbrev S1000x512 : Shape := ⟨2, ![1000, 512]⟩
abbrev S1x512 : Shape := ⟨2, ![1, 512]⟩
abbrev S1x512x512 : Shape := ⟨3, ![1, 512, 512]⟩
abbrev S160000x512 : Shape := ⟨2, ![160000, 512]⟩
abbrev S64x512 : Shape := ⟨2, ![64, 512]⟩
abbrev S10000x1 : Shape := ⟨2, ![10000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 140
  | .vmem => 40
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S128x512, .f32⟩
  | 4 => ⟨S512, .f32⟩
  | 5 => ⟨S512x512, .f32⟩
  | 6 => ⟨S512, .f32⟩
  | 7 => ⟨S3x512x512, .f32⟩
  | 8 => ⟨S3x512, .f32⟩
  | 9 => ⟨S3x512x512, .f32⟩
  | 10 => ⟨S3x512, .f32⟩
  | 11 => ⟨S512x10, .f32⟩
  | 12 => ⟨S10, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x128, .f32⟩
  | 26 => ⟨S_, .f32⟩
  | 27 => ⟨S10000x128, .f32⟩
  | 28 => ⟨S160000x1, .i32⟩
  | 29 => ⟨S10000x128, .f32⟩
  | 30 => ⟨S128x512, .bf16⟩
  | 31 => ⟨S512x512, .bf16⟩
  | 32 => ⟨S10000x512, .f32⟩
  | 33 => ⟨S1x512x512, .f32⟩
  | 34 => ⟨S512x512, .f32⟩
  | 35 => ⟨S1x512, .f32⟩
  | 36 => ⟨S512, .f32⟩
  | 37 => ⟨S1x512x512, .f32⟩
  | 38 => ⟨S512x512, .f32⟩
  | 39 => ⟨S1x512, .f32⟩
  | 40 => ⟨S512, .f32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000x512, .f32⟩
  | 50 => ⟨S_, .f32⟩
  | 51 => ⟨S10000x512, .f32⟩
  | 52 => ⟨S160000x1, .i32⟩
  | 53 => ⟨S10000x512, .f32⟩
  | 54 => ⟨S512x512, .bf16⟩
  | 55 => ⟨S512x512, .bf16⟩
  | 56 => ⟨S10000x512, .f32⟩
  | 57 => ⟨S1x512x512, .f32⟩
  | 58 => ⟨S512x512, .f32⟩
  | 59 => ⟨S1x512, .f32⟩
  | 60 => ⟨S512, .f32⟩
  | 61 => ⟨S1x512x512, .f32⟩
  | 62 => ⟨S512x512, .f32⟩
  | 63 => ⟨S1x512, .f32⟩
  | 64 => ⟨S512, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x512, .f32⟩
  | 74 => ⟨S_, .f32⟩
  | 75 => ⟨S10000x512, .f32⟩
  | 76 => ⟨S160000x1, .i32⟩
  | 77 => ⟨S10000x512, .f32⟩
  | 78 => ⟨S512x512, .bf16⟩
  | 79 => ⟨S512x512, .bf16⟩
  | 80 => ⟨S10000x512, .f32⟩
  | 81 => ⟨S1x512x512, .f32⟩
  | 82 => ⟨S512x512, .f32⟩
  | 83 => ⟨S1x512, .f32⟩
  | 84 => ⟨S512, .f32⟩
  | 85 => ⟨S1x512x512, .f32⟩
  | 86 => ⟨S512x512, .f32⟩
  | 87 => ⟨S1x512, .f32⟩
  | 88 => ⟨S512, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000x512, .f32⟩
  | 98 => ⟨S_, .f32⟩
  | 99 => ⟨S10000x512, .f32⟩
  | 100 => ⟨S160000x1, .i32⟩
  | 101 => ⟨S10000x512, .f32⟩
  | 102 => ⟨S512x512, .bf16⟩
  | 103 => ⟨S512x512, .bf16⟩
  | 104 => ⟨S10000x512, .f32⟩
  | 105 => ⟨S_, .f32⟩
  | 106 => ⟨S64x512, .f32⟩
  | 107 => ⟨S10000x1, .i32⟩
  | 108 => ⟨S64x512, .f32⟩
  | 109 => ⟨S_, .f32⟩
  | 110 => ⟨S10000, .f32⟩
  | 111 => ⟨S_, .f32⟩
  | 112 => ⟨S64, .f32⟩
  | 113 => ⟨S10000x1, .i32⟩
  | 114 => ⟨S64, .f32⟩
  | 115 => ⟨S_, .f32⟩
  | 116 => ⟨S64, .f32⟩
  | 117 => ⟨S64, .f32⟩
  | 118 => ⟨S64x1, .f32⟩
  | 119 => ⟨S64x512, .f32⟩
  | 120 => ⟨S64x512, .f32⟩
  | 121 => ⟨S64x10, .f32⟩
  | 122 => ⟨S1x10, .f32⟩
  | 123 => ⟨S64x10, .f32⟩
  | 124 => ⟨S64x10, .f32⟩
  | 125 => ⟨S_, .f32⟩
  | 126 => ⟨S64, .f32⟩
  | 127 => ⟨S_, .f32⟩
  | _ => ⟨S10000x128, .f32⟩

abbrev hbmTy0_1 (i : Nat) : BufTy := match i % 128 with
  | 0 => ⟨S64, .f32⟩
  | 1 => ⟨S64, .f32⟩
  | 2 => ⟨S64x1, .f32⟩
  | 3 => ⟨S64x10, .f32⟩
  | 4 => ⟨S64x10, .f32⟩
  | 5 => ⟨S64x10, .f32⟩
  | 6 => ⟨S_, .f32⟩
  | 7 => ⟨S64, .f32⟩
  | 8 => ⟨S64x1, .f32⟩
  | 9 => ⟨S64x1, .f32⟩
  | 10 => ⟨S64x10, .f32⟩
  | 11 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S512x512, .bf16⟩
  | .local _ .vmem, ⟨15, _⟩ => ⟨S512, .f32⟩
  | .local _ .vmem, ⟨16, _⟩ => ⟨S512x512, .bf16⟩
  | .local _ .vmem, ⟨17, _⟩ => ⟨S512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x512, .bf16⟩
  | .local _ .vmem, ⟨25, _⟩ => ⟨S512, .f32⟩
  | .local _ .vmem, ⟨26, _⟩ => ⟨S512x512, .bf16⟩
  | .local _ .vmem, ⟨27, _⟩ => ⟨S512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1000x512, .f32⟩
  | .local _ .vmem, ⟨32, _⟩ => ⟨S1000x512, .f32⟩
  | .local _ .vmem, ⟨33, _⟩ => ⟨S1000x512, .f32⟩
  | .local _ .vmem, ⟨34, _⟩ => ⟨S512x512, .bf16⟩
  | .local _ .vmem, ⟨35, _⟩ => ⟨S512, .f32⟩
  | .local _ .vmem, ⟨36, _⟩ => ⟨S512x512, .bf16⟩
  | .local _ .vmem, ⟨37, _⟩ => ⟨S512, .f32⟩
  | .local _ .vmem, ⟨38, _⟩ => ⟨S1000x512, .f32⟩
  | .local _ .vmem, ⟨39, _⟩ => ⟨S1000x512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_c_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_7 : Ref sig .tc := ⟨.hbm, 89, rfl⟩
abbrev main_v67 : Ref sig .tc := ⟨.hbm, 90, rfl⟩
abbrev main_v68 : Ref sig .tc := ⟨.hbm, 91, rfl⟩
abbrev main_c_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_10 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_cst_12 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_call0_cst : Ref sig .tc := ⟨.hbm, 125, rfl⟩
abbrev main_call0_v0 : Ref sig .tc := ⟨.hbm, 126, rfl⟩
abbrev main_call0_cst_0 : Ref sig .tc := ⟨.hbm, 127, rfl⟩
abbrev main_call0_v1 : Ref sig .tc := ⟨.hbm, 128, rfl⟩
abbrev main_call0_v2 : Ref sig .tc := ⟨.hbm, 129, rfl⟩
abbrev main_call0_v3 : Ref sig .tc := ⟨.hbm, 130, rfl⟩
abbrev main_call0_v4 : Ref sig .tc := ⟨.hbm, 131, rfl⟩
abbrev main_call0_v5 : Ref sig .tc := ⟨.hbm, 132, rfl⟩
abbrev main_call0_v6 : Ref sig .tc := ⟨.hbm, 133, rfl⟩
abbrev main_call0_cst_1 : Ref sig .tc := ⟨.hbm, 134, rfl⟩
abbrev main_call0_v7 : Ref sig .tc := ⟨.hbm, 135, rfl⟩
abbrev main_call0_v8 : Ref sig .tc := ⟨.hbm, 136, rfl⟩
abbrev main_call0_v9 : Ref sig .tc := ⟨.hbm, 137, rfl⟩
abbrev main_call0_v10 : Ref sig .tc := ⟨.hbm, 138, rfl⟩
abbrev main_v96 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x512_S1000x512_0_0 : ∀ a, (![0, 0] : Fin 2 → Nat) a + S1000x512.size a ≤ S1000x512.size a
  h_S1000x512 : 0 < S1000x512.numel
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S_S10000x512 : S_.BroadcastsInDim S10000x512 (![] : Fin 0 → Fin S10000x512.rank)
  shapeCasts_S1000x512_S1000x512 : S1000x512.ShapeCasts S1000x512
  shapeCasts_S512_S512 : S512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S1000x128_S128x512_S1000x512_1_0_0_1_n_n_wf : DotDims.WF S1000x128 S128x512 S1000x512 [1] [0] [0] [1] [] []
  dot_S1000x512_S512x512_S1000x512_1_0_0_1_n_n_wf : DotDims.WF S1000x512 S512x512 S1000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S64x512_S10000x1_S10000x512_1_0_0_1_wf : ScatterDims.WF S64x512 S10000x1 S10000x512 [1] [0] [0] 1
  scatter_S64_S10000x1_S10000_n_0_0_1_wf : ScatterDims.WF S64 S10000x1 S10000 [] [0] [0] 1
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S10000x512.size a
  hwx0_6 : ∀ i : grid0.Coords, EltTy.bits .f32 = 32 ∨ (Rect.block (s := S10000x512) S1000x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S10000x512.size a
  hwx1_6 : ∀ i : grid1.Coords, EltTy.bits .f32 = 32 ∨ (Rect.block (s := S10000x512) S1000x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S10000x512.size a
  hwx2_1 : ∀ i : grid2.Coords, EltTy.bits .f32 = 32 ∨ (Rect.block (s := S10000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x512.size a ≤ S10000x512.size a
  hwx2_6 : ∀ i : grid2.Coords, EltTy.bits .f32 = 32 ∨ (Rect.block (s := S10000x512) S1000x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .f32 = 32 ∨ (Rect.block (s := S10000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S10000x512.size a
  hwx3_1 : ∀ i : grid3.Coords, EltTy.bits .f32 = 32 ∨ (Rect.block (s := S10000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .bf16 = 32 ∨ (Rect.block (s := S512x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .bf16 = 32 ∨ (Rect.block (s := S512x512) S512x512.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x512.size a ≤ S10000x512.size a
  hwx3_6 : ∀ i : grid3.Coords, EltTy.bits .f32 = 32 ∨ (Rect.block (s := S10000x512) S1000x512.size (cc3_transform_6 i) (hinb3_6 i)).WholeWords (EltTy.packing .f32)

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1000x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1000x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S10000x512 : Shape := ⟨2, ![10000, 512]⟩
abbrev S1x512 : Shape := ⟨2, ![1, 512]⟩
abbrev S1x512x512 : Shape := ⟨3, ![1, 512, 512]⟩
abbrev S160000x512 : Shape := ⟨2, ![160000, 512]⟩
abbrev S64x512 : Shape := ⟨2, ![64, 512]⟩
abbrev S10000x1 : Shape := ⟨2, ![10000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 188
  | .vmem => 0
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S128x512, .f32⟩
  | 4 => ⟨S512, .f32⟩
  | 5 => ⟨S512x512, .f32⟩
  | 6 => ⟨S512, .f32⟩
  | 7 => ⟨S3x512x512, .f32⟩
  | 8 => ⟨S3x512, .f32⟩
  | 9 => ⟨S3x512x512, .f32⟩
  | 10 => ⟨S3x512, .f32⟩
  | 11 => ⟨S512x10, .f32⟩
  | 12 => ⟨S10, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x128, .f32⟩
  | 26 => ⟨S_, .f32⟩
  | 27 => ⟨S10000x128, .f32⟩
  | 28 => ⟨S160000x1, .i32⟩
  | 29 => ⟨S10000x128, .f32⟩
  | 30 => ⟨S10000x128, .f32⟩
  | 31 => ⟨S10000x512, .f32⟩
  | 32 => ⟨S1x512, .f32⟩
  | 33 => ⟨S10000x512, .f32⟩
  | 34 => ⟨S10000x512, .f32⟩
  | 35 => ⟨S_, .f32⟩
  | 36 => ⟨S10000x512, .f32⟩
  | 37 => ⟨S10000x512, .f32⟩
  | 38 => ⟨S10000x512, .f32⟩
  | 39 => ⟨S1x512, .f32⟩
  | 40 => ⟨S10000x512, .f32⟩
  | 41 => ⟨S10000x512, .f32⟩
  | 42 => ⟨S_, .f32⟩
  | 43 => ⟨S10000x512, .f32⟩
  | 44 => ⟨S10000x512, .f32⟩
  | 45 => ⟨S1x512x512, .f32⟩
  | 46 => ⟨S512x512, .f32⟩
  | 47 => ⟨S1x512, .f32⟩
  | 48 => ⟨S512, .f32⟩
  | 49 => ⟨S1x512x512, .f32⟩
  | 50 => ⟨S512x512, .f32⟩
  | 51 => ⟨S1x512, .f32⟩
  | 52 => ⟨S512, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x512, .f32⟩
  | 62 => ⟨S_, .f32⟩
  | 63 => ⟨S10000x512, .f32⟩
  | 64 => ⟨S160000x1, .i32⟩
  | 65 => ⟨S10000x512, .f32⟩
  | 66 => ⟨S10000x512, .f32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x512, .f32⟩
  | 75 => ⟨S1x512, .f32⟩
  | 76 => ⟨S10000x512, .f32⟩
  | 77 => ⟨S10000x512, .f32⟩
  | 78 => ⟨S_, .f32⟩
  | 79 => ⟨S10000x512, .f32⟩
  | 80 => ⟨S10000x512, .f32⟩
  | 81 => ⟨S1x512x512, .f32⟩
  | 82 => ⟨S512x512, .f32⟩
  | 83 => ⟨S1x512, .f32⟩
  | 84 => ⟨S512, .f32⟩
  | 85 => ⟨S1x512x512, .f32⟩
  | 86 => ⟨S512x512, .f32⟩
  | 87 => ⟨S1x512, .f32⟩
  | 88 => ⟨S512, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000x512, .f32⟩
  | 98 => ⟨S_, .f32⟩
  | 99 => ⟨S10000x512, .f32⟩
  | 100 => ⟨S160000x1, .i32⟩
  | 101 => ⟨S10000x512, .f32⟩
  | 102 => ⟨S10000x512, .f32⟩
  | 103 => ⟨S10000x512, .f32⟩
  | 104 => ⟨S1x512, .f32⟩
  | 105 => ⟨S10000x512, .f32⟩
  | 106 => ⟨S10000x512, .f32⟩
  | 107 => ⟨S_, .f32⟩
  | 108 => ⟨S10000x512, .f32⟩
  | 109 => ⟨S10000x512, .f32⟩
  | 110 => ⟨S10000x512, .f32⟩
  | 111 => ⟨S1x512, .f32⟩
  | 112 => ⟨S10000x512, .f32⟩
  | 113 => ⟨S10000x512, .f32⟩
  | 114 => ⟨S_, .f32⟩
  | 115 => ⟨S10000x512, .f32⟩
  | 116 => ⟨S10000x512, .f32⟩
  | 117 => ⟨S1x512x512, .f32⟩
  | 118 => ⟨S512x512, .f32⟩
  | 119 => ⟨S1x512, .f32⟩
  | 120 => ⟨S512, .f32⟩
  | 121 => ⟨S1x512x512, .f32⟩
  | 122 => ⟨S512x512, .f32⟩
  | 123 => ⟨S1x512, .f32⟩
  | 124 => ⟨S512, .f32⟩
  | 125 => ⟨S_, .i32⟩
  | 126 => ⟨S160000, .i32⟩
  | 127 => ⟨S160000, .i1⟩
  | _ => ⟨S10000x128, .f32⟩

abbrev hbmTy0_1 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S160000x512, .f32⟩
  | 6 => ⟨S_, .f32⟩
  | 7 => ⟨S10000x512, .f32⟩
  | 8 => ⟨S160000x1, .i32⟩
  | 9 => ⟨S10000x512, .f32⟩
  | 10 => ⟨S10000x512, .f32⟩
  | 11 => ⟨S10000x512, .f32⟩
  | 12 => ⟨S1x512, .f32⟩
  | 13 => ⟨S10000x512, .f32⟩
  | 14 => ⟨S10000x512, .f32⟩
  | 15 => ⟨S_, .f32⟩
  | 16 => ⟨S10000x512, .f32⟩
  | 17 => ⟨S10000x512, .f32⟩
  | 18 => ⟨S10000x512, .f32⟩
  | 19 => ⟨S1x512, .f32⟩
  | 20 => ⟨S10000x512, .f32⟩
  | 21 => ⟨S10000x512, .f32⟩
  | 22 => ⟨S_, .f32⟩
  | 23 => ⟨S10000x512, .f32⟩
  | 24 => ⟨S10000x512, .f32⟩
  | 25 => ⟨S_, .f32⟩
  | 26 => ⟨S64x512, .f32⟩
  | 27 => ⟨S10000x1, .i32⟩
  | 28 => ⟨S64x512, .f32⟩
  | 29 => ⟨S_, .f32⟩
  | 30 => ⟨S10000, .f32⟩
  | 31 => ⟨S_, .f32⟩
  | 32 => ⟨S64, .f32⟩
  | 33 => ⟨S10000x1, .i32⟩
  | 34 => ⟨S64, .f32⟩
  | 35 => ⟨S_, .f32⟩
  | 36 => ⟨S64, .f32⟩
  | 37 => ⟨S64, .f32⟩
  | 38 => ⟨S64x1, .f32⟩
  | 39 => ⟨S64x512, .f32⟩
  | 40 => ⟨S64x512, .f32⟩
  | 41 => ⟨S64x10, .f32⟩
  | 42 => ⟨S1x10, .f32⟩
  | 43 => ⟨S64x10, .f32⟩
  | 44 => ⟨S64x10, .f32⟩
  | 45 => ⟨S_, .f32⟩
  | 46 => ⟨S64, .f32⟩
  | 47 => ⟨S_, .f32⟩
  | 48 => ⟨S64, .f32⟩
  | 49 => ⟨S64, .f32⟩
  | 50 => ⟨S64x1, .f32⟩
  | 51 => ⟨S64x10, .f32⟩
  | 52 => ⟨S64x10, .f32⟩
  | 53 => ⟨S64x10, .f32⟩
  | 54 => ⟨S_, .f32⟩
  | 55 => ⟨S64, .f32⟩
  | 56 => ⟨S64x1, .f32⟩
  | 57 => ⟨S64x1, .f32⟩
  | 58 => ⟨S64x10, .f32⟩
  | 59 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_8 : Ref sig .tc := ⟨.hbm, 89, rfl⟩
abbrev main_v66 : Ref sig .tc := ⟨.hbm, 90, rfl⟩
abbrev main_v67 : Ref sig .tc := ⟨.hbm, 91, rfl⟩
abbrev main_c_9 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_13 : Ref sig .tc := ⟨.hbm, 125, rfl⟩
abbrev main_v97 : Ref sig .tc := ⟨.hbm, 126, rfl⟩
abbrev main_v98 : Ref sig .tc := ⟨.hbm, 127, rfl⟩
abbrev main_c_14 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_15 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_16 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_17 : Ref sig .tc := ⟨.hbm, 150, rfl⟩
abbrev main_v118 : Ref sig .tc := ⟨.hbm, 151, rfl⟩
abbrev main_v119 : Ref sig .tc := ⟨.hbm, 152, rfl⟩
abbrev main_cst_18 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_cst_20 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_21 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call0_cst : Ref sig .tc := ⟨.hbm, 173, rfl⟩
abbrev main_call0_v0 : Ref sig .tc := ⟨.hbm, 174, rfl⟩
abbrev main_call0_cst_0 : Ref sig .tc := ⟨.hbm, 175, rfl⟩
abbrev main_call0_v1 : Ref sig .tc := ⟨.hbm, 176, rfl⟩
abbrev main_call0_v2 : Ref sig .tc := ⟨.hbm, 177, rfl⟩
abbrev main_call0_v3 : Ref sig .tc := ⟨.hbm, 178, rfl⟩
abbrev main_call0_v4 : Ref sig .tc := ⟨.hbm, 179, rfl⟩
abbrev main_call0_v5 : Ref sig .tc := ⟨.hbm, 180, rfl⟩
abbrev main_call0_v6 : Ref sig .tc := ⟨.hbm, 181, rfl⟩
abbrev main_call0_cst_1 : Ref sig .tc := ⟨.hbm, 182, rfl⟩
abbrev main_call0_v7 : Ref sig .tc := ⟨.hbm, 183, rfl⟩
abbrev main_call0_v8 : Ref sig .tc := ⟨.hbm, 184, rfl⟩
abbrev main_call0_v9 : Ref sig .tc := ⟨.hbm, 185, rfl⟩
abbrev main_call0_v10 : Ref sig .tc := ⟨.hbm, 186, rfl⟩
abbrev main_v136 : Ref sig .tc := ⟨.hbm, 187, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x512_S10000x512_1_0_0_1_n_n_wf : DotDims.WF S10000x128 S128x512 S10000x512 [1] [0] [0] [1] [] []
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S64x512_S10000x1_S10000x512_1_0_0_1_wf : ScatterDims.WF S64x512 S10000x1 S10000x512 [1] [0] [0] 1
  scatter_S64_S10000x1_S10000_n_0_0_1_wf : ScatterDims.WF S64 S10000x1 S10000 [] [0] [0] 1
  dot_S64x512_S512x10_S64x10_1_0_0_1_n_n_wf : DotDims.WF S64x512 S512x10 S64x10 [1] [0] [0] [1] [] []

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.KRun.lean ====
/-
  The network's run with its result named.

  @main is ten segments: five stretches of host operations with the four regions between them. Run from any memory with
  zero counters, every weakly fair execution terminates, nothing faults, the thirteen argument arrays end as launched,
  and the result buffer ends holding what the last boundary's contents have there: the contents after the launch memory
  is folded through the first stretch, the first region's write-backs, the second stretch, and so on to the last
  stretch. What that fold is, as a function of the arguments, is read in the module that folds it.
-/
import proofs.«145456_j32830730011134_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments as launched. -/
theorem run_result : θ_run defs (onTc (τ := τ) (main (F := F))) ⟨m, fun _ => 0, ρ⟩ (fun r => ∀ c : Dev nD,
      r.2.mem ((c.tc : Thread nD τ).loc main_v96) = W10 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v96 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Net

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«145456_j32830730011134_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.GinLayer.lean ====
/-
  One graph-isomorphism layer on the extended reals.

  For node features h and the neighbour sums aggr (both M×K), weights w1 (K×N), w2 (N×N) and bias vectors b1, b2 (length N),
  the layer is
      (a, c) ↦ max (Σ_{k<N} hidden(a,k) · w2(k,c) + b2(c)) 0 ,   hidden(a,k) = max (Σ_{j<K} (h(a,j) + aggr(a,j)) · w1(j,k) + b1(k)) 0 .
  * layer_block: a row of the layer depends on h and aggr only through that row, so a block of rows of h and aggr gives
    that block of rows of the layer (for kernels that tile the rows over a grid).
  * layer_of_matmul: the matrix unit's spelling — the sum h + aggr narrowed to a 16-bit float format (the identity on the
    extended reals), two products over the plain dimension numbers into zero accumulators against weights already held
    in the narrow format, each bias vector shape-cast to a one-row array and spread over the rows, each maximum against
    a splat of the scalar word 0 — is the layer.
  * layer_of_dotGeneral: the host's spelling — two dot_generals over the same dimension numbers, each bias vector made a
    one-row array along axis 1 and spread along the axes [0, 1], each maximum against a rank-0 constant 0 spread along
    no axis — is the layer.
  * layer_truncf: narrowing the weights to a 16-bit format beforehand changes nothing on the extended reals (every float
    format's values are the extended reals there, so an array held in the narrow format is passed as it is).
-/
import Idealize.ShloMosaic.PureOps.Ideal.Laws
import Idealize.ShloMosaic.Lib.ValueIdx
import Idealize.ShloMosaic.Lib.ValueLayout
import Idealize.ShloMosaic.Lib.Pipeline.Value
import proofs.«145456_j32830730011134_1_alg».proof.Proof.LibPlainDot
import proofs.«145456_j32830730011134_1_alg».proof.Proof.LibDenseStage
import proofs.«145456_j32830730011134_1_alg».proof.Proof.LibHostBroadcast

noncomputable section

namespace Cert.GinLayer

open Idealize.ShloMosaic Idealize.ShloMosaic.ValueIdx

variable (M K N : Nat)

/-- The inner stage: (h + aggr)·w1 plus the bias, cut off below at 0. -/
def hidden (h aggr : FVec Ideal ⟨2, ![M, K]⟩ .f32) (w1 : FVec Ideal ⟨2, ![K, N]⟩ .f32) (b1 : FVec Ideal ⟨1, ![N]⟩ .f32) :
    FVec Ideal ⟨2, ![M, N]⟩ .f32 :=
  fun i => max (∑ j : Fin K, (h (ix2 (i 0) j) + aggr (ix2 (i 0) j)) * w1 (ix2 j (i 1)) + b1 (ix1 (i 1))) 0

/-- The layer: hidden·w2 plus the bias, cut off below at 0. -/
def layer (h aggr : FVec Ideal ⟨2, ![M, K]⟩ .f32) (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) : FVec Ideal ⟨2, ![M, N]⟩ .f32 :=
  fun i => max (∑ k : Fin N, hidden M K N h aggr w1 b1 (ix2 (i 0) k) * w2 (ix2 k (i 1)) + b2 (ix1 (i 1))) 0

theorem hidden_apply (h aggr : FVec Ideal ⟨2, ![M, K]⟩ .f32) (w1 : FVec Ideal ⟨2, ![K, N]⟩ .f32) (b1 : FVec Ideal ⟨1, ![N]⟩ .f32)
    (a : Fin M) (c : Fin N) :
    hidden M K N h aggr w1 b1 (ix2 a c) = max (∑ j : Fin K, (h (ix2 a j) + aggr (ix2 a j)) * w1 (ix2 j c) + b1 (ix1 c)) 0 := rfl

theorem layer_apply (h aggr : FVec Ideal ⟨2, ![M, K]⟩ .f32) (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (a : Fin M) (c : Fin N) :
    layer M K N h aggr w1 b1 w2 b2 (ix2 a c)
      = max (∑ k : Fin N, hidden M K N h aggr w1 b1 (ix2 a k) * w2 (ix2 k c) + b2 (ix1 c)) 0 := rfl

/-- Narrowing the weights to a 16-bit format is the identity on the extended reals. -/
theorem layer_truncf (h aggr : FVec Ideal ⟨2, ![M, K]⟩ .f32) (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (t₁ t₂ : FTy.bf16.bits < FTy.f32.bits) :
    layer M K N h aggr (truncf .bf16 w1 t₁) b1 (truncf .bf16 w2 t₂) b2 = layer M K N h aggr w1 b1 w2 b2 := rfl

/-- The hidden stage in row a' of a block is the hidden stage in row a of the whole, when the blocks' row a' is the
    whole arrays' row a. -/
theorem hidden_rows (M' : Nat) (H A : FVec Ideal ⟨2, ![M, K]⟩ .f32) (h a : FVec Ideal ⟨2, ![M', K]⟩ .f32)
    (w1 : FVec Ideal ⟨2, ![K, N]⟩ .f32) (b1 : FVec Ideal ⟨1, ![N]⟩ .f32) (r : Fin M) (r' : Fin M')
    (hh : ∀ j : Fin K, h (ix2 r' j) = H (ix2 r j)) (ha : ∀ j : Fin K, a (ix2 r' j) = A (ix2 r j)) (c : Fin N) :
    hidden M' K N h a w1 b1 (ix2 r' c) = hidden M K N H A w1 b1 (ix2 r c) := by
  rw [hidden_apply, hidden_apply]
  exact congrArg (fun s => max (s + b1 (ix1 c)) 0) (Finset.sum_congr rfl fun j _ => by rw [hh j, ha j])

/-- The layer at a position of a block of rows is the layer of the whole arrays at the position with the same column
    whose row is the block's row. -/
theorem layer_block (M' : Nat) (H A : FVec Ideal ⟨2, ![M, K]⟩ .f32) (h a : FVec Ideal ⟨2, ![M', K]⟩ .f32)
    (w1 : FVec Ideal ⟨2, ![K, N]⟩ .f32) (b1 : FVec Ideal ⟨1, ![N]⟩ .f32) (w2 : FVec Ideal ⟨2, ![N, N]⟩ .f32) (b2 : FVec Ideal ⟨1, ![N]⟩ .f32)
    (r : Fin M) (r' : Fin M') (c : Fin N)
    (hh : ∀ j : Fin K, h (ix2 r' j) = H (ix2 r j)) (ha : ∀ j : Fin K, a (ix2 r' j) = A (ix2 r j)) :
    layer M' K N h a w1 b1 w2 b2 (ix2 r' c) = layer M K N H A w1 b1 w2 b2 (ix2 r c) := by
  rw [layer_apply, layer_apply]
  exact congrArg (fun s => max (s + b2 (ix1 c)) 0)
    (Finset.sum_congr rfl fun k _ => by rw [hidden_rows M K N M' H A h a w1 b1 r r' hh ha k])

/-- A bias vector shape-cast to a one-row array and spread over M rows reads, at (a, c), the vector's entry c. -/
theorem bias_broadcastTo (b : FVec Ideal ⟨1, ![N]⟩ .f32) (hc : (⟨1, ![N]⟩ : Shape).ShapeCasts ⟨2, ![1, N]⟩)
    (hb : (⟨2, ![1, N]⟩ : Shape).Broadcasts ⟨2, ![M, N]⟩) (a : Fin M) (c : Fin N) :
    broadcastTo ⟨2, ![M, N]⟩ (shapeCast ⟨2, ![1, N]⟩ b hc) hb (ix2 a c) = b (ix1 c) :=
  (Cert.LibDenseStage.row_broadcastTo M N (shapeCast ⟨2, ![1, N]⟩ b hc) hb a c).trans (shapeCast_a_1a_apply b hc 0 c)

/-- The matrix unit's spelling of the hidden stage. -/
theorem hidden_of_matmul (h aggr : FVec Ideal ⟨2, ![M, K]⟩ .f32) (w1 : FVec Ideal ⟨2, ![K, N]⟩ .bf16) (b1 : FVec Ideal ⟨1, ![N]⟩ .f32)
    (t : FTy.bf16.bits < FTy.f32.bits) (hc : (⟨1, ![N]⟩ : Shape).ShapeCasts ⟨2, ![1, N]⟩)
    (hb : (⟨2, ![1, N]⟩ : Shape).Broadcasts ⟨2, ![M, N]⟩) :
    maximumf (addf (matmul (F := Ideal) (DotDims.plain M K N) none (truncf .bf16 (addf h aggr) t) w1
          (constant ⟨2, ![M, N]⟩ .f32 0x00000000#32))
        (broadcastTo ⟨2, ![M, N]⟩ (shapeCast ⟨2, ![1, N]⟩ b1 hc) hb))
      (broadcast ⟨2, ![M, N]⟩ (Scalar.ofBits (F := Ideal) .f32 0x00000000#32))
      = hidden M K N h aggr w1 b1 := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, bias_broadcastTo, hidden_apply]
  exact congrArg (max _) Ideal.ofBits_zero_f32

/-- The matrix unit's spelling of the layer. -/
theorem layer_of_matmul (h aggr : FVec Ideal ⟨2, ![M, K]⟩ .f32) (w1 : FVec Ideal ⟨2, ![K, N]⟩ .bf16) (b1 : FVec Ideal ⟨1, ![N]⟩ .f32)
    (w2 : FVec Ideal ⟨2, ![N, N]⟩ .bf16) (b2 : FVec Ideal ⟨1, ![N]⟩ .f32)
    (t : FTy.bf16.bits < FTy.f32.bits) (hc : (⟨1, ![N]⟩ : Shape).ShapeCasts ⟨2, ![1, N]⟩)
    (hb : (⟨2, ![1, N]⟩ : Shape).Broadcasts ⟨2, ![M, N]⟩) :
    maximumf (addf (matmul (F := Ideal) (DotDims.plain M N N) none
          (truncf .bf16
            (maximumf (addf (matmul (F := Ideal) (DotDims.plain M K N) none (truncf .bf16 (addf h aggr) t) w1
                  (constant ⟨2, ![M, N]⟩ .f32 0x00000000#32))
                (broadcastTo ⟨2, ![M, N]⟩ (shapeCast ⟨2, ![1, N]⟩ b1 hc) hb))
              (broadcast ⟨2, ![M, N]⟩ (Scalar.ofBits (F := Ideal) .f32 0x00000000#32))) t)
          w2 (constant ⟨2, ![M, N]⟩ .f32 0x00000000#32))
        (broadcastTo ⟨2, ![M, N]⟩ (shapeCast ⟨2, ![1, N]⟩ b2 hc) hb))
      (broadcast ⟨2, ![M, N]⟩ (Scalar.ofBits (F := Ideal) .f32 0x00000000#32))
      = layer M K N h aggr w1 b1 w2 b2 := by
  rw [hidden_of_matmul]
  funext i
  obtain ⟨a, c, rfl⟩ : ∃ (a : Fin M) (c : Fin N), i = ix2 a c := ⟨i 0, i 1, eq_ix2 i⟩
  rw [maximumf_apply, addf_apply, broadcast_apply, Cert.LibPlainDot.matmul_plain, bias_broadcastTo, layer_apply]
  exact congrArg (max _) Ideal.ofBits_zero_f32

/-- The host's spelling of the hidden stage. -/
theorem hidden_of_dotGeneral (h aggr : FVec Ideal ⟨2, ![M, K]⟩ .f32) (w1 : FVec Ideal ⟨2, ![K, N]⟩ .f32) (b1 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none (addf h aggr) w1)
        (broadcastInDim ⟨2, ![M, N]⟩ ![0, 1] h2 (broadcastInDim ⟨2, ![1, N]⟩ ![1] h1 b1)))
      (broadcastInDim ⟨2, ![M, N]⟩ ![] h0 (constant (F := Ideal) ⟨0, ![]⟩ .f32 0x00000000#32))
      = hidden M K N h aggr w1 b1 := by
  funext i
  obtain ⟨a, c, rfl⟩ : ∃ (a : Fin M) (c : Fin N), i = ix2 a c := ⟨i 0, i 1, eq_ix2 i⟩
  rw [maximumf_apply, addf_apply, Cert.LibPlainDot.dotGeneral_plain, Cert.LibHostBroadcast.vec_along_cols,
    Cert.LibHostBroadcast.scalar_to_any, constant_apply, hidden_apply]
  exact congrArg (max _) Ideal.ofBits_zero_f32

/-- The host's spelling of the layer. -/
theorem layer_of_dotGeneral (h aggr : FVec Ideal ⟨2, ![M, K]⟩ .f32) (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M N N) none
          (maximumf (addf (Host.dotGeneral (F := Ideal) (DotDims.plain M K N) none (addf h aggr) w1)
              (broadcastInDim ⟨2, ![M, N]⟩ ![0, 1] h2 (broadcastInDim ⟨2, ![1, N]⟩ ![1] h1 b1)))
            (broadcastInDim ⟨2, ![M, N]⟩ ![] h0 (constant (F := Ideal) ⟨0, ![]⟩ .f32 0x00000000#32)))
          w2)
        (broadcastInDim ⟨2, ![M, N]⟩ ![0, 1] h2 (broadcastInDim ⟨2, ![1, N]⟩ ![1] h1 b2)))
      (broadcastInDim ⟨2, ![M, N]⟩ ![] h0 (constant (F := Ideal) ⟨0, ![]⟩ .f32 0x00000000#32))
      = layer M K N h aggr w1 b1 w2 b2 := by
  rw [hidden_of_dotGeneral]
  funext i
  obtain ⟨a, c, rfl⟩ : ∃ (a : Fin M) (c : Fin N), i = ix2 a c := ⟨i 0, i 1, eq_ix2 i⟩
  rw [maximumf_apply, addf_apply, Cert.LibPlainDot.dotGeneral_plain, Cert.LibHostBroadcast.vec_along_cols,
    Cert.LibHostBroadcast.scalar_to_any, constant_apply, layer_apply]
  exact congrArg (max _) Ideal.ofBits_zero_f32

end Cert.GinLayer

end
-- ==== Proof.Blocks0.lean ====
/-
  Region 0 of the network, seen as one function of whole arrays.

  The region's grid has ten points; point t reads rows 1000·t … 1000·t + 999 of the node features and of the neighbour
  sums, the whole of both weights and both bias vectors, and writes the same rows of the output. A row of a layer depends
  on the features and the sums only through that row, so what point t writes back is rows 1000·t … of the layer of the
  WHOLE arrays; the ten blocks tile the output's 10000 rows, so the output array ends as that layer.
-/
import proofs.«145456_j32830730011134_1_alg».proof.Proof.Gen.KernelIdeal.Frame
import proofs.«145456_j32830730011134_1_alg».proof.Proof.GinLayer
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value is the layer of its loaded blocks. -/
theorem pay (x0 x1 : Vec Ideal S1000x128 .f32) (x2 : Vec Ideal S128x512 .bf16) (x3 : Vec Ideal S512 .f32)
    (x4 : Vec Ideal S512x512 .bf16) (x5 : Vec Ideal S512 .f32) :
    k0_pay1 (F := Ideal) x0 x1 x2 x3 x4 x5 = Cert.GinLayer.layer 1000 128 512 x0 x1 x2 x3 x4 x5 := by
  unfold k0_pay1
  simp only [shapeCast_self]
  exact Cert.GinLayer.layer_of_matmul 1000 128 512 x0 x1 x2 x3 x4 x5 _ _ _

/-- The index maps over the grid: the two row-tiled inputs move with the output along the rows, the weights and the
    biases stay at block 0, and the output's row block is below 10. -/
theorem idx : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) ≤ 9 ∧ win0_6.index t (1 : Fin 2) = 0 :=
  (by decide +kernel : ∀ t : Fin grid0.N, _)

/-- Every row block of the output is some point's. -/
theorem onto : ∀ q : Fin 10, ∃ t : Fin cfg0.N, win0_6.index t = ![q.val, 0] :=
  (by decide +kernel : ∀ q : Fin 10, ∃ t : Fin grid0.N, win0_6.index t = ![q.val, 0])

/-- The first weight's block at any point is the whole array. -/
theorem whole2 (c : Dev nD) (t : Fin cfg0.N) : (iblk0 V c 2 t : S128x512.Idx → Elt Ideal .bf16) = V c main_v14 := by
  obtain ⟨-, -, -, -, e0, e1, -⟩ := idx t
  funext y
  show V c main_v14 (((cfg0.win 2).blk t).view.emb y) = V c main_v14 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 512 + 1 * (y 1).val = (y 1).val; omega

/-- The first bias's block at any point is the whole vector. -/
theorem whole3 (c : Dev nD) (t : Fin cfg0.N) : (iblk0 V c 3 t : S512.Idx → Elt Ideal .f32) = V c main_arg4 := by
  obtain ⟨-, -, -, -, -, -, e0, -⟩ := idx t
  funext y
  show V c main_arg4 (((cfg0.win 3).blk t).view.emb y) = V c main_arg4 y
  refine congrArg _ (funext fun a => Fin.ext ?_)
  match a with
  | ⟨0, _⟩ => show win0_3.index t (0 : Fin 1) * 512 + 1 * (y 0).val = (y 0).val; omega

/-- The second weight's block at any point is the whole array. -/
theorem whole4 (c : Dev nD) (t : Fin cfg0.N) : (iblk0 V c 4 t : S512x512.Idx → Elt Ideal .bf16) = V c main_v15 := by
  obtain ⟨-, -, -, -, -, -, -, e0, e1, -⟩ := idx t
  funext y
  show V c main_v15 (((cfg0.win 4).blk t).view.emb y) = V c main_v15 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The second bias's block at any point is the whole vector. -/
theorem whole5 (c : Dev nD) (t : Fin cfg0.N) : (iblk0 V c 5 t : S512.Idx → Elt Ideal .f32) = V c main_arg6 := by
  obtain ⟨-, -, -, -, -, -, -, -, -, e0, -⟩ := idx t
  funext y
  show V c main_arg6 (((cfg0.win 5).blk t).view.emb y) = V c main_arg6 y
  refine congrArg _ (funext fun a => Fin.ext ?_)
  match a with
  | ⟨0, _⟩ => show win0_5.index t (0 : Fin 1) * 512 + 1 * (y 0).val = (y 0).val; omega

/-- What point t writes back is block t of the layer of the whole arrays as the region finds them. -/
theorem flushed (c : Dev nD) (t : Fin cfg0.N) :
    (dat0 V c).flushed 6 t = ((cfg0.win 6).blk t).view.read (Elt Ideal)
      (Cert.GinLayer.layer 10000 128 512 (V c main_arg0) (V c main_v13) (V c main_v14) (V c main_arg4) (V c main_v15) (V c main_arg6)) := by
  show (cfg0.win 6).cut (grid0.coords t) ((dat0 V c).after 6 t) = _
  rw [after0_6]
  unfold out0_6
  rw [View.canon_unit_zero hz2]
  simp only [View.ld_unit_zero (S := S1000x128) hz2, View.ld_unit_zero (S := S128x512) hz2, View.ld_unit_zero (S := S512) hz1,
    View.ld_unit_zero (S := S512x512) hz2]
  rw [pay, whole2, whole3, whole4, whole5]
  obtain ⟨e0, e1, e2, e3, -, -, -, -, -, -, e10, e11⟩ := idx t
  funext j
  obtain ⟨r, q, rfl⟩ : ∃ (r : Fin 1000) (q : Fin 512), j = ix2 r q := ⟨j 0, j 1, eq_ix2 j⟩
  have hr : r.val < 1000 := r.isLt
  have hR : win0_6.index t (0 : Fin 2) * 1000 + r.val < 10000 := by omega
  have hemb : ((cfg0.win 6).blk t).view.emb (ix2 r q)
      = ix2 (⟨win0_6.index t (0 : Fin 2) * 1000 + r.val, hR⟩ : Fin 10000) q := by
    funext a; apply Fin.ext
    match a with
    | ⟨0, _⟩ => show win0_6.index t (0 : Fin 2) * 1000 + 1 * r.val = win0_6.index t (0 : Fin 2) * 1000 + r.val; omega
    | ⟨1, _⟩ => show win0_6.index t (1 : Fin 2) * 512 + 1 * q.val = q.val; omega
  show Cert.GinLayer.layer 1000 128 512 (iblk0 V c 0 t) (iblk0 V c 1 t) (V c main_v14) (V c main_arg4) (V c main_v15) (V c main_arg6) (ix2 r q)
    = Cert.GinLayer.layer 10000 128 512 (V c main_arg0) (V c main_v13) (V c main_v14) (V c main_arg4) (V c main_v15) (V c main_arg6)
        (((cfg0.win 6).blk t).view.emb (ix2 r q))
  rw [hemb]
  refine Cert.GinLayer.layer_block 10000 128 512 1000 (V c main_arg0) (V c main_v13) (iblk0 V c 0 t) (iblk0 V c 1 t)
    (V c main_v14) (V c main_arg4) (V c main_v15) (V c main_arg6) ⟨win0_6.index t (0 : Fin 2) * 1000 + r.val, hR⟩ r q ?_ ?_
  · intro k
    show V c main_arg0 (((cfg0.win 0).blk t).view.emb (ix2 r k)) = V c main_arg0 (ix2 (⟨win0_6.index t (0 : Fin 2) * 1000 + r.val, hR⟩ : Fin 10000) k)
    refine congrArg _ (funext fun a => Fin.ext ?_)
    match a with
    | ⟨0, _⟩ => show win0_0.index t (0 : Fin 2) * 1000 + 1 * r.val = win0_6.index t (0 : Fin 2) * 1000 + r.val; omega
    | ⟨1, _⟩ => show win0_0.index t (1 : Fin 2) * 128 + 1 * k.val = k.val; omega
  · intro k
    show V c main_v13 (((cfg0.win 1).blk t).view.emb (ix2 r k)) = V c main_v13 (ix2 (⟨win0_6.index t (0 : Fin 2) * 1000 + r.val, hR⟩ : Fin 10000) k)
    refine congrArg _ (funext fun a => Fin.ext ?_)
    match a with
    | ⟨0, _⟩ => show win0_1.index t (0 : Fin 2) * 1000 + 1 * r.val = win0_6.index t (0 : Fin 2) * 1000 + r.val; omega
    | ⟨1, _⟩ => show win0_1.index t (1 : Fin 2) * 128 + 1 * k.val = k.val; omega

/-- An index of the output array is in point t's block iff each coordinate is in the block's range on its axis. -/
theorem mem_blk (t : Fin cfg0.N) (i : S10000x512.Idx) :
    i ∈ ((cfg0.win 6).blk t).view.set ↔ ∀ a : Fin 2, win0_6.index t a * S1000x512.size a ≤ (i a).val
      ∧ (i a).val < win0_6.index t a * S1000x512.size a + S1000x512.size a := by
  show i ∈ ((View.whole main_v16).slice (win0_6.rect t)).set ↔ _
  rw [View.set_slice_whole, Rect.mem_set_unit]
  exact Iff.rfl

/-- Row r of the output is in the block of the point whose row block is r / 1000. -/
theorem cover (i : S10000x512.Idx) :
    ∃ t : Fin cfg0.N, (cfg0.win 6).flush t = true ∧ i ∈ ((cfg0.win 6).blk t).view.set := by
  have hi0 : (i 0).val < 10000 := (i 0).isLt
  have hi1 : (i 1).val < 512 := (i 1).isLt
  obtain ⟨t, ht⟩ := onto ⟨(i 0).val / 1000, by omega⟩
  have q0 : win0_6.index t (0 : Fin 2) = (i 0).val / 1000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 512 ≤ (i 1).val ∧ (i 1).val < win0_6.index t (1 : Fin 2) * 512 + 512; omega

/-- The output array after the region is the layer of the arrays the region found. -/
theorem final (c : Dev nD) :
    (dat0 V c).arrAt 6 cfg0.N
      = Cert.GinLayer.layer 10000 128 512 (V c main_arg0) (V c main_v13) (V c main_v14) (V c main_arg4) (V c main_v15) (V c main_arg6) :=
  (dat0 V c).arrAt_eq_of_cover 6 _ (fun t _ => flushed V c t) cover

end Cert.KernelIdeal.Blocks0

end
-- ==== Proof.Blocks1.lean ====
/-
  Region 1 of the network, seen as one function of whole arrays.

  The region's grid has ten points; point t reads rows 1000·t … 1000·t + 999 of the node features and of the neighbour
  sums, the whole of both weights and both bias vectors, and writes the same rows of the output. A row of a layer depends
  on the features and the sums only through that row, so what point t writes back is rows 1000·t … of the layer of the
  WHOLE arrays; the ten blocks tile the output's 10000 rows, so the output array ends as that layer.
-/
import proofs.«145456_j32830730011134_1_alg».proof.Proof.Gen.KernelIdeal.Frame
import proofs.«145456_j32830730011134_1_alg».proof.Proof.GinLayer
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value is the layer of its loaded blocks. -/
theorem pay (x0 x1 : Vec Ideal S1000x512 .f32) (x2 : Vec Ideal S512x512 .bf16) (x3 : Vec Ideal S512 .f32)
    (x4 : Vec Ideal S512x512 .bf16) (x5 : Vec Ideal S512 .f32) :
    k1_pay1 (F := Ideal) x0 x1 x2 x3 x4 x5 = Cert.GinLayer.layer 1000 512 512 x0 x1 x2 x3 x4 x5 := by
  unfold k1_pay1
  simp only [shapeCast_self]
  exact Cert.GinLayer.layer_of_matmul 1000 512 512 x0 x1 x2 x3 x4 x5 _ _ _

/-- The index maps over the grid: the two row-tiled inputs move with the output along the rows, the weights and the
    biases stay at block 0, and the output's row block is below 10. -/
theorem idx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) ≤ 9 ∧ win1_6.index t (1 : Fin 2) = 0 :=
  (by decide +kernel : ∀ t : Fin grid1.N, _)

/-- Every row block of the output is some point's. -/
theorem onto : ∀ q : Fin 10, ∃ t : Fin cfg1.N, win1_6.index t = ![q.val, 0] :=
  (by decide +kernel : ∀ q : Fin 10, ∃ t : Fin grid1.N, win1_6.index t = ![q.val, 0])

/-- The first weight's block at any point is the whole array. -/
theorem whole2 (c : Dev nD) (t : Fin cfg1.N) : (iblk1 V c 2 t : S512x512.Idx → Elt Ideal .bf16) = V c main_v35 := by
  obtain ⟨-, -, -, -, e0, e1, -⟩ := idx t
  funext y
  show V c main_v35 (((cfg1.win 2).blk t).view.emb y) = V c main_v35 y
  refine congrArg _ (funext fun a => Fin.ext ?_)
  match a with
  | ⟨0, _⟩ => show win1_2.index t (0 : Fin 2) * 512 + 1 * (y 0).val = (y 0).val; omega
  | ⟨1, _⟩ => show win1_2.index t (1 : Fin 2) * 512 + 1 * (y 1).val = (y 1).val; omega

/-- The first bias's block at any point is the whole vector. -/
theorem whole3 (c : Dev nD) (t : Fin cfg1.N) : (iblk1 V c 3 t : S512.Idx → Elt Ideal .f32) = V c main_v20 := by
  obtain ⟨-, -, -, -, -, -, e0, -⟩ := idx t
  funext y
  show V c main_v20 (((cfg1.win 3).blk t).view.emb y) = V c main_v20 y
  refine congrArg _ (funext fun a => Fin.ext ?_)
  match a with
  | ⟨0, _⟩ => show win1_3.index t (0 : Fin 1) * 512 + 1 * (y 0).val = (y 0).val; omega

/-- The second weight's block at any point is the whole array. -/
theorem whole4 (c : Dev nD) (t : Fin cfg1.N) : (iblk1 V c 4 t : S512x512.Idx → Elt Ideal .bf16) = V c main_v36 := by
  obtain ⟨-, -, -, -, -, -, -, e0, e1, -⟩ := idx t
  funext y
  show V c main_v36 (((cfg1.win 4).blk t).view.emb y) = V c main_v36 y
  refine congrArg _ (funext fun a => Fin.ext ?_)
  match a with
  | ⟨0, _⟩ => show win1_4.index t (0 : Fin 2) * 512 + 1 * (y 0).val = (y 0).val; omega
  | ⟨1, _⟩ => show win1_4.index t (1 : Fin 2) * 512 + 1 * (y 1).val = (y 1).val; omega

/-- The second bias's block at any point is the whole vector. -/
theorem whole5 (c : Dev nD) (t : Fin cfg1.N) : (iblk1 V c 5 t : S512.Idx → Elt Ideal .f32) = V c main_v24 := by
  obtain ⟨-, -, -, -, -, -, -, -, -, e0, -⟩ := idx t
  funext y
  show V c main_v24 (((cfg1.win 5).blk t).view.emb y) = V c main_v24 y
  refine congrArg _ (funext fun a => Fin.ext ?_)
  match a with
  | ⟨0, _⟩ => show win1_5.index t (0 : Fin 1) * 512 + 1 * (y 0).val = (y 0).val; omega

/-- What point t writes back is block t of the layer of the whole arrays as the region finds them. -/
theorem flushed (c : Dev nD) (t : Fin cfg1.N) :
    (dat1 V c).flushed 6 t = ((cfg1.win 6).blk t).view.read (Elt Ideal)
      (Cert.GinLayer.layer 10000 512 512 (V c main_v16) (V c main_v34) (V c main_v35) (V c main_v20) (V c main_v36) (V c main_v24)) := by
  show (cfg1.win 6).cut (grid1.coords t) ((dat1 V c).after 6 t) = _
  rw [after1_6]
  unfold out1_6
  rw [View.canon_unit_zero hz2]
  simp only [View.ld_unit_zero (S := S1000x512) hz2, View.ld_unit_zero (S := S512x512) hz2, View.ld_unit_zero (S := S512) hz1,
    View.ld_unit_zero (S := S512x512) hz2]
  rw [pay, whole2, whole3, whole4, whole5]
  obtain ⟨e0, e1, e2, e3, -, -, -, -, -, -, e10, e11⟩ := idx t
  funext j
  obtain ⟨r, q, rfl⟩ : ∃ (r : Fin 1000) (q : Fin 512), j = ix2 r q := ⟨j 0, j 1, eq_ix2 j⟩
  have hr : r.val < 1000 := r.isLt
  have hR : win1_6.index t (0 : Fin 2) * 1000 + r.val < 10000 := by omega
  have hemb : ((cfg1.win 6).blk t).view.emb (ix2 r q)
      = ix2 (⟨win1_6.index t (0 : Fin 2) * 1000 + r.val, hR⟩ : Fin 10000) q := by
    funext a; apply Fin.ext
    match a with
    | ⟨0, _⟩ => show win1_6.index t (0 : Fin 2) * 1000 + 1 * r.val = win1_6.index t (0 : Fin 2) * 1000 + r.val; omega
    | ⟨1, _⟩ => show win1_6.index t (1 : Fin 2) * 512 + 1 * q.val = q.val; omega
  show Cert.GinLayer.layer 1000 512 512 (iblk1 V c 0 t) (iblk1 V c 1 t) (V c main_v35) (V c main_v20) (V c main_v36) (V c main_v24) (ix2 r q)
    = Cert.GinLayer.layer 10000 512 512 (V c main_v16) (V c main_v34) (V c main_v35) (V c main_v20) (V c main_v36) (V c main_v24)
        (((cfg1.win 6).blk t).view.emb (ix2 r q))
  rw [hemb]
  refine Cert.GinLayer.layer_block 10000 512 512 1000 (V c main_v16) (V c main_v34) (iblk1 V c 0 t) (iblk1 V c 1 t)
    (V c main_v35) (V c main_v20) (V c main_v36) (V c main_v24) ⟨win1_6.index t (0 : Fin 2) * 1000 + r.val, hR⟩ r q ?_ ?_
  · intro k
    show V c main_v16 (((cfg1.win 0).blk t).view.emb (ix2 r k)) = V c main_v16 (ix2 (⟨win1_6.index t (0 : Fin 2) * 1000 + r.val, hR⟩ : Fin 10000) k)
    refine congrArg _ (funext fun a => Fin.ext ?_)
    match a with
    | ⟨0, _⟩ => show win1_0.index t (0 : Fin 2) * 1000 + 1 * r.val = win1_6.index t (0 : Fin 2) * 1000 + r.val; omega
    | ⟨1, _⟩ => show win1_0.index t (1 : Fin 2) * 512 + 1 * k.val = k.val; omega
  · intro k
    show V c main_v34 (((cfg1.win 1).blk t).view.emb (ix2 r k)) = V c main_v34 (ix2 (⟨win1_6.index t (0 : Fin 2) * 1000 + r.val, hR⟩ : Fin 10000) k)
    refine congrArg _ (funext fun a => Fin.ext ?_)
    match a with
    | ⟨0, _⟩ => show win1_1.index t (0 : Fin 2) * 1000 + 1 * r.val = win1_6.index t (0 : Fin 2) * 1000 + r.val; omega
    | ⟨1, _⟩ => show win1_1.index t (1 : Fin 2) * 512 + 1 * k.val = k.val; omega

/-- An index of the output array is in point t's block iff each coordinate is in the block's range on its axis. -/
theorem mem_blk (t : Fin cfg1.N) (i : S10000x512.Idx) :
    i ∈ ((cfg1.win 6).blk t).view.set ↔ ∀ a : Fin 2, win1_6.index t a * S1000x512.size a ≤ (i a).val
      ∧ (i a).val < win1_6.index t a * S1000x512.size a + S1000x512.size a := by
  show i ∈ ((View.whole main_v37).slice (win1_6.rect t)).set ↔ _
  rw [View.set_slice_whole, Rect.mem_set_unit]
  exact Iff.rfl

/-- Row r of the output is in the block of the point whose row block is r / 1000. -/
theorem cover (i : S10000x512.Idx) :
    ∃ t : Fin cfg1.N, (cfg1.win 6).flush t = true ∧ i ∈ ((cfg1.win 6).blk t).view.set := by
  have hi0 : (i 0).val < 10000 := (i 0).isLt
  have hi1 : (i 1).val < 512 := (i 1).isLt
  obtain ⟨t, ht⟩ := onto ⟨(i 0).val / 1000, by omega⟩
  have q0 : win1_6.index t (0 : Fin 2) = (i 0).val / 1000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 512 ≤ (i 1).val ∧ (i 1).val < win1_6.index t (1 : Fin 2) * 512 + 512; omega

/-- The output array after the region is the layer of the arrays the region found. -/
theorem final (c : Dev nD) :
    (dat1 V c).arrAt 6 cfg1.N
      = Cert.GinLayer.layer 10000 512 512 (V c main_v16) (V c main_v34) (V c main_v35) (V c main_v20) (V c main_v36) (V c main_v24) :=
  (dat1 V c).arrAt_eq_of_cover 6 _ (fun t _ => flushed V c t) cover

end Cert.KernelIdeal.Blocks1

end
-- ==== Proof.Blocks2.lean ====
/-
  Region 2 of the network, seen as one function of whole arrays.

  The region's grid has ten points; point t reads rows 1000·t … 1000·t + 999 of the node features and of the neighbour
  sums, the whole of both weights and both bias vectors, and writes the same rows of the output. A row of a layer depends
  on the features and the sums only through that row, so what point t writes back is rows 1000·t … of the layer of the
  WHOLE arrays; the ten blocks tile the output's 10000 rows, so the output array ends as that layer.
-/
import proofs.«145456_j32830730011134_1_alg».proof.Proof.Gen.KernelIdeal.Frame
import proofs.«145456_j32830730011134_1_alg».proof.Proof.GinLayer
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value is the layer of its loaded blocks. -/
theorem pay (x0 x1 : Vec Ideal S1000x512 .f32) (x2 : Vec Ideal S512x512 .bf16) (x3 : Vec Ideal S512 .f32)
    (x4 : Vec Ideal S512x512 .bf16) (x5 : Vec Ideal S512 .f32) :
    k2_pay1 (F := Ideal) x0 x1 x2 x3 x4 x5 = Cert.GinLayer.layer 1000 512 512 x0 x1 x2 x3 x4 x5 := by
  unfold k2_pay1
  simp only [shapeCast_self]
  exact Cert.GinLayer.layer_of_matmul 1000 512 512 x0 x1 x2 x3 x4 x5 _ _ _

/-- The index maps over the grid: the two row-tiled inputs move with the output along the rows, the weights and the
    biases stay at block 0, and the output's row block is below 10. -/
theorem idx : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) ≤ 9 ∧ win2_6.index t (1 : Fin 2) = 0 :=
  (by decide +kernel : ∀ t : Fin grid2.N, _)

/-- Every row block of the output is some point's. -/
theorem onto : ∀ q : Fin 10, ∃ t : Fin cfg2.N, win2_6.index t = ![q.val, 0] :=
  (by decide +kernel : ∀ q : Fin 10, ∃ t : Fin grid2.N, win2_6.index t = ![q.val, 0])

/-- The first weight's block at any point is the whole array. -/
theorem whole2 (c : Dev nD) (t : Fin cfg2.N) : (iblk2 V c 2 t : S512x512.Idx → Elt Ideal .bf16) = V c main_v56 := by
  obtain ⟨-, -, -, -, e0, e1, -⟩ := idx t
  funext y
  show V c main_v56 (((cfg2.win 2).blk t).view.emb y) = V c main_v56 y
  refine congrArg _ (funext fun a => Fin.ext ?_)
  match a with
  | ⟨0, _⟩ => show win2_2.index t (0 : Fin 2) * 512 + 1 * (y 0).val = (y 0).val; omega
  | ⟨1, _⟩ => show win2_2.index t (1 : Fin 2) * 512 + 1 * (y 1).val = (y 1).val; omega

/-- The first bias's block at any point is the whole vector. -/
theorem whole3 (c : Dev nD) (t : Fin cfg2.N) : (iblk2 V c 3 t : S512.Idx → Elt Ideal .f32) = V c main_v41 := by
  obtain ⟨-, -, -, -, -, -, e0, -⟩ := idx t
  funext y
  show V c main_v41 (((cfg2.win 3).blk t).view.emb y) = V c main_v41 y
  refine congrArg _ (funext fun a => Fin.ext ?_)
  match a with
  | ⟨0, _⟩ => show win2_3.index t (0 : Fin 1) * 512 + 1 * (y 0).val = (y 0).val; omega

/-- The second weight's block at any point is the whole array. -/
theorem whole4 (c : Dev nD) (t : Fin cfg2.N) : (iblk2 V c 4 t : S512x512.Idx → Elt Ideal .bf16) = V c main_v57 := by
  obtain ⟨-, -, -, -, -, -, -, e0, e1, -⟩ := idx t
  funext y
  show V c main_v57 (((cfg2.win 4).blk t).view.emb y) = V c main_v57 y
  refine congrArg _ (funext fun a => Fin.ext ?_)
  match a with
  | ⟨0, _⟩ => show win2_4.index t (0 : Fin 2) * 512 + 1 * (y 0).val = (y 0).val; omega
  | ⟨1, _⟩ => show win2_4.index t (1 : Fin 2) * 512 + 1 * (y 1).val = (y 1).val; omega

/-- The second bias's block at any point is the whole vector. -/
theorem whole5 (c : Dev nD) (t : Fin cfg2.N) : (iblk2 V c 5 t : S512.Idx → Elt Ideal .f32) = V c main_v45 := by
  obtain ⟨-, -, -, -, -, -, -, -, -, e0, -⟩ := idx t
  funext y
  show V c main_v45 (((cfg2.win 5).blk t).view.emb y) = V c main_v45 y
  refine congrArg _ (funext fun a => Fin.ext ?_)
  match a with
  | ⟨0, _⟩ => show win2_5.index t (0 : Fin 1) * 512 + 1 * (y 0).val = (y 0).val; omega

/-- What point t writes back is block t of the layer of the whole arrays as the region finds them. -/
theorem flushed (c : Dev nD) (t : Fin cfg2.N) :
    (dat2 V c).flushed 6 t = ((cfg2.win 6).blk t).view.read (Elt Ideal)
      (Cert.GinLayer.layer 10000 512 512 (V c main_v37) (V c main_v55) (V c main_v56) (V c main_v41) (V c main_v57) (V c main_v45)) := by
  show (cfg2.win 6).cut (grid2.coords t) ((dat2 V c).after 6 t) = _
  rw [after2_6]
  unfold out2_6
  rw [View.canon_unit_zero hz2]
  simp only [View.ld_unit_zero (S := S1000x512) hz2, View.ld_unit_zero (S := S512x512) hz2, View.ld_unit_zero (S := S512) hz1,
    View.ld_unit_zero (S := S512x512) hz2]
  rw [pay, whole2, whole3, whole4, whole5]
  obtain ⟨e0, e1, e2, e3, -, -, -, -, -, -, e10, e11⟩ := idx t
  funext j
  obtain ⟨r, q, rfl⟩ : ∃ (r : Fin 1000) (q : Fin 512), j = ix2 r q := ⟨j 0, j 1, eq_ix2 j⟩
  have hr : r.val < 1000 := r.isLt
  have hR : win2_6.index t (0 : Fin 2) * 1000 + r.val < 10000 := by omega
  have hemb : ((cfg2.win 6).blk t).view.emb (ix2 r q)
      = ix2 (⟨win2_6.index t (0 : Fin 2) * 1000 + r.val, hR⟩ : Fin 10000) q := by
    funext a; apply Fin.ext
    match a with
    | ⟨0, _⟩ => show win2_6.index t (0 : Fin 2) * 1000 + 1 * r.val = win2_6.index t (0 : Fin 2) * 1000 + r.val; omega
    | ⟨1, _⟩ => show win2_6.index t (1 : Fin 2) * 512 + 1 * q.val = q.val; omega
  show Cert.GinLayer.layer 1000 512 512 (iblk2 V c 0 t) (iblk2 V c 1 t) (V c main_v56) (V c main_v41) (V c main_v57) (V c main_v45) (ix2 r q)
    = Cert.GinLayer.layer 10000 512 512 (V c main_v37) (V c main_v55) (V c main_v56) (V c main_v41) (V c main_v57) (V c main_v45)
        (((cfg2.win 6).blk t).view.emb (ix2 r q))
  rw [hemb]
  refine Cert.GinLayer.layer_block 10000 512 512 1000 (V c main_v37) (V c main_v55) (iblk2 V c 0 t) (iblk2 V c 1 t)
    (V c main_v56) (V c main_v41) (V c main_v57) (V c main_v45) ⟨win2_6.index t (0 : Fin 2) * 1000 + r.val, hR⟩ r q ?_ ?_
  · intro k
    show V c main_v37 (((cfg2.win 0).blk t).view.emb (ix2 r k)) = V c main_v37 (ix2 (⟨win2_6.index t (0 : Fin 2) * 1000 + r.val, hR⟩ : Fin 10000) k)
    refine congrArg _ (funext fun a => Fin.ext ?_)
    match a with
    | ⟨0, _⟩ => show win2_0.index t (0 : Fin 2) * 1000 + 1 * r.val = win2_6.index t (0 : Fin 2) * 1000 + r.val; omega
    | ⟨1, _⟩ => show win2_0.index t (1 : Fin 2) * 512 + 1 * k.val = k.val; omega
  · intro k
    show V c main_v55 (((cfg2.win 1).blk t).view.emb (ix2 r k)) = V c main_v55 (ix2 (⟨win2_6.index t (0 : Fin 2) * 1000 + r.val, hR⟩ : Fin 10000) k)
    refine congrArg _ (funext fun a => Fin.ext ?_)
    match a with
    | ⟨0, _⟩ => show win2_1.index t (0 : Fin 2) * 1000 + 1 * r.val = win2_6.index t (0 : Fin 2) * 1000 + r.val; omega
    | ⟨1, _⟩ => show win2_1.index t (1 : Fin 2) * 512 + 1 * k.val = k.val; omega

/-- An index of the output array is in point t's block iff each coordinate is in the block's range on its axis. -/
theorem mem_blk (t : Fin cfg2.N) (i : S10000x512.Idx) :
    i ∈ ((cfg2.win 6).blk t).view.set ↔ ∀ a : Fin 2, win2_6.index t a * S1000x512.size a ≤ (i a).val
      ∧ (i a).val < win2_6.index t a * S1000x512.size a + S1000x512.size a := by
  show i ∈ ((View.whole main_v58).slice (win2_6.rect t)).set ↔ _
  rw [View.set_slice_whole, Rect.mem_set_unit]
  exact Iff.rfl

/-- Row r of the output is in the block of the point whose row block is r / 1000. -/
theorem cover (i : S10000x512.Idx) :
    ∃ t : Fin cfg2.N, (cfg2.win 6).flush t = true ∧ i ∈ ((cfg2.win 6).blk t).view.set := by
  have hi0 : (i 0).val < 10000 := (i 0).isLt
  have hi1 : (i 1).val < 512 := (i 1).isLt
  obtain ⟨t, ht⟩ := onto ⟨(i 0).val / 1000, by omega⟩
  have q0 : win2_6.index t (0 : Fin 2) = (i 0).val / 1000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 512 ≤ (i 1).val ∧ (i 1).val < win2_6.index t (1 : Fin 2) * 512 + 512; omega

/-- The output array after the region is the layer of the arrays the region found. -/
theorem final (c : Dev nD) :
    (dat2 V c).arrAt 6 cfg2.N
      = Cert.GinLayer.layer 10000 512 512 (V c main_v37) (V c main_v55) (V c main_v56) (V c main_v41) (V c main_v57) (V c main_v45) :=
  (dat2 V c).arrAt_eq_of_cover 6 _ (fun t _ => flushed V c t) cover

end Cert.KernelIdeal.Blocks2

end
-- ==== Proof.Blocks3.lean ====
/-
  Region 3 of the network, seen as one function of whole arrays.

  The region's grid has ten points; point t reads rows 1000·t … 1000·t + 999 of the node features and of the neighbour
  sums, the whole of both weights and both bias vectors, and writes the same rows of the output. A row of a layer depends
  on the features and the sums only through that row, so what point t writes back is rows 1000·t … of the layer of the
  WHOLE arrays; the ten blocks tile the output's 10000 rows, so the output array ends as that layer.
-/
import proofs.«145456_j32830730011134_1_alg».proof.Proof.Gen.KernelIdeal.Frame
import proofs.«145456_j32830730011134_1_alg».proof.Proof.GinLayer
import Idealize.ShloMosaic.Lib.Pipeline.Value

set_option maxRecDepth 16384

noncomputable section

namespace Cert.KernelIdeal.Blocks3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value is the layer of its loaded blocks. -/
theorem pay (x0 x1 : Vec Ideal S1000x512 .f32) (x2 : Vec Ideal S512x512 .bf16) (x3 : Vec Ideal S512 .f32)
    (x4 : Vec Ideal S512x512 .bf16) (x5 : Vec Ideal S512 .f32) :
    k3_pay1 (F := Ideal) x0 x1 x2 x3 x4 x5 = Cert.GinLayer.layer 1000 512 512 x0 x1 x2 x3 x4 x5 := by
  unfold k3_pay1
  simp only [shapeCast_self]
  exact Cert.GinLayer.layer_of_matmul 1000 512 512 x0 x1 x2 x3 x4 x5 _ _ _

/-- The index maps over the grid: the two row-tiled inputs move with the output along the rows, the weights and the
    biases stay at block 0, and the output's row block is below 10. -/
theorem idx : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) ≤ 9 ∧ win3_6.index t (1 : Fin 2) = 0 :=
  (by decide +kernel : ∀ t : Fin grid3.N, _)

/-- Every row block of the output is some point's. -/
theorem onto : ∀ q : Fin 10, ∃ t : Fin cfg3.N, win3_6.index t = ![q.val, 0] :=
  (by decide +kernel : ∀ q : Fin 10, ∃ t : Fin grid3.N, win3_6.index t = ![q.val, 0])

/-- The first weight's block at any point is the whole array. -/
theorem whole2 (c : Dev nD) (t : Fin cfg3.N) : (iblk3 V c 2 t : S512x512.Idx → Elt Ideal .bf16) = V c main_v77 := by
  obtain ⟨-, -, -, -, e0, e1, -⟩ := idx t
  funext y
  show V c main_v77 (((cfg3.win 2).blk t).view.emb y) = V c main_v77 y
  refine congrArg _ (funext fun a => Fin.ext ?_)
  match a with
  | ⟨0, _⟩ => show win3_2.index t (0 : Fin 2) * 512 + 1 * (y 0).val = (y 0).val; omega
  | ⟨1, _⟩ => show win3_2.index t (1 : Fin 2) * 512 + 1 * (y 1).val = (y 1).val; omega

/-- The first bias's block at any point is the whole vector. -/
theorem whole3 (c : Dev nD) (t : Fin cfg3.N) : (iblk3 V c 3 t : S512.Idx → Elt Ideal .f32) = V c main_v62 := by
  obtain ⟨-, -, -, -, -, -, e0, -⟩ := idx t
  funext y
  show V c main_v62 (((cfg3.win 3).blk t).view.emb y) = V c main_v62 y
  refine congrArg _ (funext fun a => Fin.ext ?_)
  match a with
  | ⟨0, _⟩ => show win3_3.index t (0 : Fin 1) * 512 + 1 * (y 0).val = (y 0).val; omega

/-- The second weight's block at any point is the whole array. -/
theorem whole4 (c : Dev nD) (t : Fin cfg3.N) : (iblk3 V c 4 t : S512x512.Idx → Elt Ideal .bf16) = V c main_v78 := by
  obtain ⟨-, -, -, -, -, -, -, e0, e1, -⟩ := idx t
  funext y
  show V c main_v78 (((cfg3.win 4).blk t).view.emb y) = V c main_v78 y
  refine congrArg _ (funext fun a => Fin.ext ?_)
  match a with
  | ⟨0, _⟩ => show win3_4.index t (0 : Fin 2) * 512 + 1 * (y 0).val = (y 0).val; omega
  | ⟨1, _⟩ => show win3_4.index t (1 : Fin 2) * 512 + 1 * (y 1).val = (y 1).val; omega

/-- The second bias's block at any point is the whole vector. -/
theorem whole5 (c : Dev nD) (t : Fin cfg3.N) : (iblk3 V c 5 t : S512.Idx → Elt Ideal .f32) = V c main_v66 := by
  obtain ⟨-, -, -, -, -, -, -, -, -, e0, -⟩ := idx t
  funext y
  show V c main_v66 (((cfg3.win 5).blk t).view.emb y) = V c main_v66 y
  refine congrArg _ (funext fun a => Fin.ext ?_)
  match a with
  | ⟨0, _⟩ => show win3_5.index t (0 : Fin 1) * 512 + 1 * (y 0).val = (y 0).val; omega

/-- What point t writes back is block t of the layer of the whole arrays as the region finds them. -/
theorem flushed (c : Dev nD) (t : Fin cfg3.N) :
    (dat3 V c).flushed 6 t = ((cfg3.win 6).blk t).view.read (Elt Ideal)
      (Cert.GinLayer.layer 10000 512 512 (V c main_v58) (V c main_v76) (V c main_v77) (V c main_v62) (V c main_v78) (V c main_v66)) := by
  show (cfg3.win 6).cut (grid3.coords t) ((dat3 V c).after 6 t) = _
  rw [after3_6]
  unfold out3_6
  rw [View.canon_unit_zero hz2]
  simp only [View.ld_unit_zero (S := S1000x512) hz2, View.ld_unit_zero (S := S512x512) hz2, View.ld_unit_zero (S := S512) hz1,
    View.ld_unit_zero (S := S512x512) hz2]
  rw [pay, whole2, whole3, whole4, whole5]
  obtain ⟨e0, e1, e2, e3, -, -, -, -, -, -, e10, e11⟩ := idx t
  funext j
  obtain ⟨r, q, rfl⟩ : ∃ (r : Fin 1000) (q : Fin 512), j = ix2 r q := ⟨j 0, j 1, eq_ix2 j⟩
  have hr : r.val < 1000 := r.isLt
  have hR : win3_6.index t (0 : Fin 2) * 1000 + r.val < 10000 := by omega
  have hemb : ((cfg3.win 6).blk t).view.emb (ix2 r q)
      = ix2 (⟨win3_6.index t (0 : Fin 2) * 1000 + r.val, hR⟩ : Fin 10000) q := by
    funext a; apply Fin.ext
    match a with
    | ⟨0, _⟩ => show win3_6.index t (0 : Fin 2) * 1000 + 1 * r.val = win3_6.index t (0 : Fin 2) * 1000 + r.val; omega
    | ⟨1, _⟩ => show win3_6.index t (1 : Fin 2) * 512 + 1 * q.val = q.val; omega
  show Cert.GinLayer.layer 1000 512 512 (iblk3 V c 0 t) (iblk3 V c 1 t) (V c main_v77) (V c main_v62) (V c main_v78) (V c main_v66) (ix2 r q)
    = Cert.GinLayer.layer 10000 512 512 (V c main_v58) (V c main_v76) (V c main_v77) (V c main_v62) (V c main_v78) (V c main_v66)
        (((cfg3.win 6).blk t).view.emb (ix2 r q))
  rw [hemb]
  refine Cert.GinLayer.layer_block 10000 512 512 1000 (V c main_v58) (V c main_v76) (iblk3 V c 0 t) (iblk3 V c 1 t)
    (V c main_v77) (V c main_v62) (V c main_v78) (V c main_v66) ⟨win3_6.index t (0 : Fin 2) * 1000 + r.val, hR⟩ r q ?_ ?_
  · intro k
    show V c main_v58 (((cfg3.win 0).blk t).view.emb (ix2 r k)) = V c main_v58 (ix2 (⟨win3_6.index t (0 : Fin 2) * 1000 + r.val, hR⟩ : Fin 10000) k)
    refine congrArg _ (funext fun a => Fin.ext ?_)
    match a with
    | ⟨0, _⟩ => show win3_0.index t (0 : Fin 2) * 1000 + 1 * r.val = win3_6.index t (0 : Fin 2) * 1000 + r.val; omega
    | ⟨1, _⟩ => show win3_0.index t (1 : Fin 2) * 512 + 1 * k.val = k.val; omega
  · intro k
    show V c main_v76 (((cfg3.win 1).blk t).view.emb (ix2 r k)) = V c main_v76 (ix2 (⟨win3_6.index t (0 : Fin 2) * 1000 + r.val, hR⟩ : Fin 10000) k)
    refine congrArg _ (funext fun a => Fin.ext ?_)
    match a with
    | ⟨0, _⟩ => show win3_1.index t (0 : Fin 2) * 1000 + 1 * r.val = win3_6.index t (0 : Fin 2) * 1000 + r.val; omega
    | ⟨1, _⟩ => show win3_1.index t (1 : Fin 2) * 512 + 1 * k.val = k.val; omega

/-- An index of the output array is in point t's block iff each coordinate is in the block's range on its axis. -/
theorem mem_blk (t : Fin cfg3.N) (i : S10000x512.Idx) :
    i ∈ ((cfg3.win 6).blk t).view.set ↔ ∀ a : Fin 2, win3_6.index t a * S1000x512.size a ≤ (i a).val
      ∧ (i a).val < win3_6.index t a * S1000x512.size a + S1000x512.size a := by
  show i ∈ ((View.whole main_v79).slice (win3_6.rect t)).set ↔ _
  rw [View.set_slice_whole, Rect.mem_set_unit]
  exact Iff.rfl

/-- Row r of the output is in the block of the point whose row block is r / 1000. -/
theorem cover (i : S10000x512.Idx) :
    ∃ t : Fin cfg3.N, (cfg3.win 6).flush t = true ∧ i ∈ ((cfg3.win 6).blk t).view.set := by
  have hi0 : (i 0).val < 10000 := (i 0).isLt
  have hi1 : (i 1).val < 512 := (i 1).isLt
  obtain ⟨t, ht⟩ := onto ⟨(i 0).val / 1000, by omega⟩
  have q0 : win3_6.index t (0 : Fin 2) = (i 0).val / 1000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 1000 ≤ (i 0).val ∧ (i 0).val < win3_6.index t (0 : Fin 2) * 1000 + 1000; omega
  | ⟨1, _⟩ => show win3_6.index t (1 : Fin 2) * 512 ≤ (i 1).val ∧ (i 1).val < win3_6.index t (1 : Fin 2) * 512 + 512; omega

/-- The output array after the region is the layer of the arrays the region found. -/
theorem final (c : Dev nD) :
    (dat3 V c).arrAt 6 cfg3.N
      = Cert.GinLayer.layer 10000 512 512 (V c main_v58) (V c main_v76) (V c main_v77) (V c main_v62) (V c main_v78) (V c main_v66) :=
  (dat3 V c).arrAt_eq_of_cover 6 _ (fun t _ => flushed V c t) cover

end Cert.KernelIdeal.Blocks3

end
-- ==== Proof.LibRegionAsOp.lean ====
/-
  A pipelined region seen from outside is one pure operation on whole arrays.

  When a region is left, the buffers hold what they held when it was entered, except the region's own arrays, which
  hold what the write-backs left. If those final arrays are exactly what a single host operation would compute from
  the entry contents (the inputs untouched, each output a pure function of the inputs), then the buffer contents at
  the exit ARE that operation's result on the entry contents, as whole valuations. A program of several regions among
  host operations is then one straight line of pure operations, and its results are read off by folding that line.
-/
import Idealize.ShloMosaic.Lib.Pipeline.FrameSuffix
import Idealize.ShloMosaic.Lib.StableHlo.Run

noncomputable section

namespace Cert.LibRegionAsOp

open Idealize.ShloMosaic Idealize.ShloMosaic.StableHlo Idealize.ShloMosaic.Pipeline

variable {nD : Nat} {τ : Topo} {sig : RefSig} {Val : EltTy → Type}

/-- The exit contents of a region whose arrays end at `A` are the result of the operation `op` on the entry contents
    `V`, provided every array of the region ends at what `op` leaves in it (`hA`: for an array `op` does not write
    this says it is unchanged) and `op` writes nothing but arrays of the region (`hsub`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val)
    (hA : ∀ w, A w = op.result V (Proc.devRef .tc (arrRef win w)))
    (hsub : ∀ b ∈ op.writes, ∃ w, Proc.devRef .tc (arrRef win w) = b) :
    withArrays win c V A = op.result V := by
  funext b
  by_cases h : ∃ w, Proc.devRef .tc (arrRef win w) = b
  · obtain ⟨w, rfl⟩ := h
    rw [withArrays_arr win hinj c V A w, hA w]
  · unfold withArrays
    rw [dif_neg h]
    exact (op.result_of_not_mem V fun hb => h (hsub b hb)).symm

end Cert.LibRegionAsOp

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.LibNary6.lean ====
/-
  A host operation of six operands, read at its result.

  `StableHlo.nary` takes its operands as a family of references. Over the LITERAL family of six references
  ![x0, x1, x2, x3, x4, x5] its result is its function of the six operands' contents, each read at its own literal
  reference (rather than under a binder at `![…] k`), so that a fold over a line of operations goes on rewriting the
  operands' contents. With the simp form (the result reference un-indexed) beside it.
-/
import Idealize.ShloMosaic.Lib.StableHlo.Run

noncomputable section

namespace Idealize.ShloMosaic.StableHlo

open TcCoe

variable {τ : Topo} {sig : RefSig} {Val : EltTy → Type}
variable {x0 x1 x2 x3 x4 x5 y : Ref sig .tc}

/-- The result of a six-operand operation, each operand's contents at its own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same, for one simp pass over a long line. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Idealize.ShloMosaic.StableHlo

end
-- ==== Proof.KFold.lean ====
/-
  The network's host program as ONE straight line of pure operations.

  Seen from outside, each of the four regions is one operation on whole arrays: it leaves its six input arrays as it
  found them and its output array at the layer of the six. So the buffer contents after the whole program are the launch
  memory folded through one line: the first stretch of host operations, the first layer, the second stretch, the
  second layer, and so on to the last stretch.
-/
import proofs.«145456_j32830730011134_1_alg».proof.Proof.Gen.KernelIdeal.Frame
import proofs.«145456_j32830730011134_1_alg».proof.Proof.Blocks0
import proofs.«145456_j32830730011134_1_alg».proof.Proof.Blocks1
import proofs.«145456_j32830730011134_1_alg».proof.Proof.Blocks2
import proofs.«145456_j32830730011134_1_alg».proof.Proof.Blocks3
import proofs.«145456_j32830730011134_1_alg».proof.Proof.LibRegionAsOp
import proofs.«145456_j32830730011134_1_alg».proof.Proof.LibRunWindows
import proofs.«145456_j32830730011134_1_alg».proof.Proof.LibNary6
import proofs.«145456_j32830730011134_1_alg».proof.Proof.GinLayer

set_option maxRecDepth 16384

noncomputable section

namespace Cert.KernelIdeal.Net

open Cert.KernelIdeal Cert.KernelIdeal.Gen Idealize.ShloMosaic Idealize.ShloMosaic.TcCoe Idealize.ShloMosaic.StableHlo Idealize.SL.Sem
open Idealize.ShloMosaic.Pipeline (Dat Cfg Window)

/-- Region 0 seen from outside: one operation that leaves the layer of its six operands in `main_v16`. -/
def op0 : HloOp τ sig (Elt Ideal) :=
  StableHlo.nary ![main_arg0, main_v13, main_v14, main_arg4, main_v15, main_arg6] main_v16
    (fun u => Cert.GinLayer.layer 10000 128 512 (u 0) (u 1) (u 2) (u 3) (u 4) (u 5))

/-- Region 1 seen from outside: one operation that leaves the layer of its six operands in `main_v37`. -/
def op1 : HloOp τ sig (Elt Ideal) :=
  StableHlo.nary ![main_v16, main_v34, main_v35, main_v20, main_v36, main_v24] main_v37
    (fun u => Cert.GinLayer.layer 10000 512 512 (u 0) (u 1) (u 2) (u 3) (u 4) (u 5))

/-- Region 2 seen from outside: one operation that leaves the layer of its six operands in `main_v58`. -/
def op2 : HloOp τ sig (Elt Ideal) :=
  StableHlo.nary ![main_v37, main_v55, main_v56, main_v41, main_v57, main_v45] main_v58
    (fun u => Cert.GinLayer.layer 10000 512 512 (u 0) (u 1) (u 2) (u 3) (u 4) (u 5))

/-- Region 3 seen from outside: one operation that leaves the layer of its six operands in `main_v79`. -/
def op3 : HloOp τ sig (Elt Ideal) :=
  StableHlo.nary ![main_v58, main_v76, main_v77, main_v62, main_v78, main_v66] main_v79
    (fun u => Cert.GinLayer.layer 10000 512 512 (u 0) (u 1) (u 2) (u 3) (u 4) (u 5))

/-- That operation's result at its own buffer. -/
theorem op0_result (X : Valuation τ sig (Elt Ideal)) :
    (op0).result X (Proc.devRef .tc main_v16)
      = Cert.GinLayer.layer 10000 128 512 (X (Proc.devRef .tc main_arg0)) (X (Proc.devRef .tc main_v13)) (X (Proc.devRef .tc main_v14))
          (X (Proc.devRef .tc main_arg4)) (X (Proc.devRef .tc main_v15)) (X (Proc.devRef .tc main_arg6)) := by
  unfold op0
  rw [nary6_result]
  rfl

/-- It leaves every other buffer as it was. -/
theorem op0_result_ne (X : Valuation τ sig (Elt Ideal)) {r : Ref sig .tc} (h : r ≠ main_v16) :
    (op0).result X (Proc.devRef .tc r) = X (Proc.devRef .tc r) :=
  StableHlo.nary_result_ne (y := main_v16) _ _ _ _ X h

/-- That operation's result at its own buffer. -/
theorem op1_result (X : Valuation τ sig (Elt Ideal)) :
    (op1).result X (Proc.devRef .tc main_v37)
      = Cert.GinLayer.layer 10000 512 512 (X (Proc.devRef .tc main_v16)) (X (Proc.devRef .tc main_v34)) (X (Proc.devRef .tc main_v35))
          (X (Proc.devRef .tc main_v20)) (X (Proc.devRef .tc main_v36)) (X (Proc.devRef .tc main_v24)) := by
  unfold op1
  rw [nary6_result]
  rfl

/-- It leaves every other buffer as it was. -/
theorem op1_result_ne (X : Valuation τ sig (Elt Ideal)) {r : Ref sig .tc} (h : r ≠ main_v37) :
    (op1).result X (Proc.devRef .tc r) = X (Proc.devRef .tc r) :=
  StableHlo.nary_result_ne (y := main_v37) _ _ _ _ X h

/-- That operation's result at its own buffer. -/
theorem op2_result (X : Valuation τ sig (Elt Ideal)) :
    (op2).result X (Proc.devRef .tc main_v58)
      = Cert.GinLayer.layer 10000 512 512 (X (Proc.devRef .tc main_v37)) (X (Proc.devRef .tc main_v55)) (X (Proc.devRef .tc main_v56))
          (X (Proc.devRef .tc main_v41)) (X (Proc.devRef .tc main_v57)) (X (Proc.devRef .tc main_v45)) := by
  unfold op2
  rw [nary6_result]
  rfl

/-- It leaves every other buffer as it was. -/
theorem op2_result_ne (X : Valuation τ sig (Elt Ideal)) {r : Ref sig .tc} (h : r ≠ main_v58) :
    (op2).result X (Proc.devRef .tc r) = X (Proc.devRef .tc r) :=
  StableHlo.nary_result_ne (y := main_v58) _ _ _ _ X h

/-- That operation's result at its own buffer. -/
theorem op3_result (X : Valuation τ sig (Elt Ideal)) :
    (op3).result X (Proc.devRef .tc main_v79)
      = Cert.GinLayer.layer 10000 512 512 (X (Proc.devRef .tc main_v58)) (X (Proc.devRef .tc main_v76)) (X (Proc.devRef .tc main_v77))
          (X (Proc.devRef .tc main_v62)) (X (Proc.devRef .tc main_v78)) (X (Proc.devRef .tc main_v66)) := by
  unfold op3
  rw [nary6_result]
  rfl

/-- It leaves every other buffer as it was. -/
theorem op3_result_ne (X : Valuation τ sig (Elt Ideal)) {r : Ref sig .tc} (h : r ≠ main_v79) :
    (op3).result X (Proc.devRef .tc r) = X (Proc.devRef .tc r) :=
  StableHlo.nary_result_ne (y := main_v79) _ _ _ _ X h

/-- The two facts about region 0's operation in the form one simp pass over a long line uses. -/
theorem op0_result' (X : Valuation τ sig (Elt Ideal)) :
    (op0).result X (no_index (Proc.devRef .tc main_v16))
      = Cert.GinLayer.layer 10000 128 512 (X (Proc.devRef .tc main_arg0)) (X (Proc.devRef .tc main_v13)) (X (Proc.devRef .tc main_v14))
          (X (Proc.devRef .tc main_arg4)) (X (Proc.devRef .tc main_v15)) (X (Proc.devRef .tc main_arg6)) := op0_result X
theorem op0_result_ne' (X : Valuation τ sig (Elt Ideal)) {r : Ref sig .tc} (h : r ≠ main_v16) :
    (op0).result X (no_index (Proc.devRef .tc r)) = X (Proc.devRef .tc r) := op0_result_ne X h

/-- The two facts about region 1's operation in the form one simp pass over a long line uses. -/
theorem op1_result' (X : Valuation τ sig (Elt Ideal)) :
    (op1).result X (no_index (Proc.devRef .tc main_v37))
      = Cert.GinLayer.layer 10000 512 512 (X (Proc.devRef .tc main_v16)) (X (Proc.devRef .tc main_v34)) (X (Proc.devRef .tc main_v35))
          (X (Proc.devRef .tc main_v20)) (X (Proc.devRef .tc main_v36)) (X (Proc.devRef .tc main_v24)) := op1_result X
theorem op1_result_ne' (X : Valuation τ sig (Elt Ideal)) {r : Ref sig .tc} (h : r ≠ main_v37) :
    (op1).result X (no_index (Proc.devRef .tc r)) = X (Proc.devRef .tc r) := op1_result_ne X h

/-- The two facts about region 2's operation in the form one simp pass over a long line uses. -/
theorem op2_result' (X : Valuation τ sig (Elt Ideal)) :
    (op2).result X (no_index (Proc.devRef .tc main_v58))
      = Cert.GinLayer.layer 10000 512 512 (X (Proc.devRef .tc main_v37)) (X (Proc.devRef .tc main_v55)) (X (Proc.devRef .tc main_v56))
          (X (Proc.devRef .tc main_v41)) (X (Proc.devRef .tc main_v57)) (X (Proc.devRef .tc main_v45)) := op2_result X
theorem op2_result_ne' (X : Valuation τ sig (Elt Ideal)) {r : Ref sig .tc} (h : r ≠ main_v58) :
    (op2).result X (no_index (Proc.devRef .tc r)) = X (Proc.devRef .tc r) := op2_result_ne X h

/-- The two facts about region 3's operation in the form one simp pass over a long line uses. -/
theorem op3_result' (X : Valuation τ sig (Elt Ideal)) :
    (op3).result X (no_index (Proc.devRef .tc main_v79))
      = Cert.GinLayer.layer 10000 512 512 (X (Proc.devRef .tc main_v58)) (X (Proc.devRef .tc main_v76)) (X (Proc.devRef .tc main_v77))
          (X (Proc.devRef .tc main_v62)) (X (Proc.devRef .tc main_v78)) (X (Proc.devRef .tc main_v66)) := op3_result X
theorem op3_result_ne' (X : Valuation τ sig (Elt Ideal)) {r : Ref sig .tc} (h : r ≠ main_v79) :
    (op3).result X (no_index (Proc.devRef .tc r)) = X (Proc.devRef .tc r) := op3_result_ne X h

/-! ## Each region, from any entry contents -/

section Regions

variable (Y : Dev nD → Valuation τ sig (Elt Ideal))

/-- Buffer contents read at the TensorCore's references. -/
abbrev asV : (c : Dev nD) → (b : Ref sig .tc) → Buf (Elt Ideal) ((c : Thread nD τ).loc b) := fun c b => Y c b

set_option maxHeartbeats 4000000 in
/-- From ANY contents at region 0's entry, the contents at its exit are that operation's result: the six input arrays are
    left as found, the output array ends as the layer of the six, and nothing else is touched. -/
theorem region0 (c : Dev nD) :
    Pipeline.withArrays spec0 c (Y c) (fun w => (dat0 (asV Y) c).arrAt w cfg0.N) = (op0).result (Y c) := by
  refine Cert.LibRegionAsOp.withArrays_eq_result spec0 launch0.win.arr_inj c (Y c) _ op0 (fun w => ?_) (fun b hb => ?_)
  · match w with
    | ⟨0, _⟩ =>
      exact (((dat0 (asV Y) c).arrAt_in 0 rfl _).trans (A_eq0 (asV Y) c 0)).trans
        (op0_result_ne (Y c) (r := main_arg0) (by decide)).symm
    | ⟨1, _⟩ =>
      exact (((dat0 (asV Y) c).arrAt_in 1 rfl _).trans (A_eq0 (asV Y) c 1)).trans
        (op0_result_ne (Y c) (r := main_v13) (by decide)).symm
    | ⟨2, _⟩ =>
      exact (((dat0 (asV Y) c).arrAt_in 2 rfl _).trans (A_eq0 (asV Y) c 2)).trans
        (op0_result_ne (Y c) (r := main_v14) (by decide)).symm
    | ⟨3, _⟩ =>
      exact (((dat0 (asV Y) c).arrAt_in 3 rfl _).trans (A_eq0 (asV Y) c 3)).trans
        (op0_result_ne (Y c) (r := main_arg4) (by decide)).symm
    | ⟨4, _⟩ =>
      exact (((dat0 (asV Y) c).arrAt_in 4 rfl _).trans (A_eq0 (asV Y) c 4)).trans
        (op0_result_ne (Y c) (r := main_v15) (by decide)).symm
    | ⟨5, _⟩ =>
      exact (((dat0 (asV Y) c).arrAt_in 5 rfl _).trans (A_eq0 (asV Y) c 5)).trans
        (op0_result_ne (Y c) (r := main_arg6) (by decide)).symm
    | ⟨6, _⟩ =>
      exact (Cert.KernelIdeal.Blocks0.final (asV Y) c).trans (op0_result (Y c)).symm
  · exact ⟨6, (Finset.mem_singleton.mp hb).symm⟩

set_option maxHeartbeats 4000000 in
/-- From ANY contents at region 1's entry, the contents at its exit are that operation's result: the six input arrays are
    left as found, the output array ends as the layer of the six, and nothing else is touched. -/
theorem region1 (c : Dev nD) :
    Pipeline.withArrays spec1 c (Y c) (fun w => (dat1 (asV Y) c).arrAt w cfg1.N) = (op1).result (Y c) := by
  refine Cert.LibRegionAsOp.withArrays_eq_result spec1 launch1.win.arr_inj c (Y c) _ op1 (fun w => ?_) (fun b hb => ?_)
  · match w with
    | ⟨0, _⟩ =>
      exact (((dat1 (asV Y) c).arrAt_in 0 rfl _).trans (A_eq1 (asV Y) c 0)).trans
        (op1_result_ne (Y c) (r := main_v16) (by decide)).symm
    | ⟨1, _⟩ =>
      exact (((dat1 (asV Y) c).arrAt_in 1 rfl _).trans (A_eq1 (asV Y) c 1)).trans
        (op1_result_ne (Y c) (r := main_v34) (by decide)).symm
    | ⟨2, _⟩ =>
      exact (((dat1 (asV Y) c).arrAt_in 2 rfl _).trans (A_eq1 (asV Y) c 2)).trans
        (op1_result_ne (Y c) (r := main_v35) (by decide)).symm
    | ⟨3, _⟩ =>
      exact (((dat1 (asV Y) c).arrAt_in 3 rfl _).trans (A_eq1 (asV Y) c 3)).trans
        (op1_result_ne (Y c) (r := main_v20) (by decide)).symm
    | ⟨4, _⟩ =>
      exact (((dat1 (asV Y) c).arrAt_in 4 rfl _).trans (A_eq1 (asV Y) c 4)).trans
        (op1_result_ne (Y c) (r := main_v36) (by decide)).symm
    | ⟨5, _⟩ =>
      exact (((dat1 (asV Y) c).arrAt_in 5 rfl _).trans (A_eq1 (asV Y) c 5)).trans
        (op1_result_ne (Y c) (r := main_v24) (by decide)).symm
    | ⟨6, _⟩ =>
      exact (Cert.KernelIdeal.Blocks1.final (asV Y) c).trans (op1_result (Y c)).symm
  · exact ⟨6, (Finset.mem_singleton.mp hb).symm⟩

set_option maxHeartbeats 4000000 in
/-- From ANY contents at region 2's entry, the contents at its exit are that operation's result: the six input arrays are
    left as found, the output array ends as the layer of the six, and nothing else is touched. -/
theorem region2 (c : Dev nD) :
    Pipeline.withArrays spec2 c (Y c) (fun w => (dat2 (asV Y) c).arrAt w cfg2.N) = (op2).result (Y c) := by
  refine Cert.LibRegionAsOp.withArrays_eq_result spec2 launch2.win.arr_inj c (Y c) _ op2 (fun w => ?_) (fun b hb => ?_)
  · match w with
    | ⟨0, _⟩ =>
      exact (((dat2 (asV Y) c).arrAt_in 0 rfl _).trans (A_eq2 (asV Y) c 0)).trans
        (op2_result_ne (Y c) (r := main_v37) (by decide)).symm
    | ⟨1, _⟩ =>
      exact (((dat2 (asV Y) c).arrAt_in 1 rfl _).trans (A_eq2 (asV Y) c 1)).trans
        (op2_result_ne (Y c) (r := main_v55) (by decide)).symm
    | ⟨2, _⟩ =>
      exact (((dat2 (asV Y) c).arrAt_in 2 rfl _).trans (A_eq2 (asV Y) c 2)).trans
        (op2_result_ne (Y c) (r := main_v56) (by decide)).symm
    | ⟨3, _⟩ =>
      exact (((dat2 (asV Y) c).arrAt_in 3 rfl _).trans (A_eq2 (asV Y) c 3)).trans
        (op2_result_ne (Y c) (r := main_v41) (by decide)).symm
    | ⟨4, _⟩ =>
      exact (((dat2 (asV Y) c).arrAt_in 4 rfl _).trans (A_eq2 (asV Y) c 4)).trans
        (op2_result_ne (Y c) (r := main_v57) (by decide)).symm
    | ⟨5, _⟩ =>
      exact (((dat2 (asV Y) c).arrAt_in 5 rfl _).trans (A_eq2 (asV Y) c 5)).trans
        (op2_result_ne (Y c) (r := main_v45) (by decide)).symm
    | ⟨6, _⟩ =>
      exact (Cert.KernelIdeal.Blocks2.final (asV Y) c).trans (op2_result (Y c)).symm
  · exact ⟨6, (Finset.mem_singleton.mp hb).symm⟩

set_option maxHeartbeats 4000000 in
/-- From ANY contents at region 3's entry, the contents at its exit are that operation's result: the six input arrays are
    left as found, the output array ends as the layer of the six, and nothing else is touched. -/
theorem region3 (c : Dev nD) :
    Pipeline.withArrays spec3 c (Y c) (fun w => (dat3 (asV Y) c).arrAt w cfg3.N) = (op3).result (Y c) := by
  refine Cert.LibRegionAsOp.withArrays_eq_result spec3 launch3.win.arr_inj c (Y c) _ op3 (fun w => ?_) (fun b hb => ?_)
  · match w with
    | ⟨0, _⟩ =>
      exact (((dat3 (asV Y) c).arrAt_in 0 rfl _).trans (A_eq3 (asV Y) c 0)).trans
        (op3_result_ne (Y c) (r := main_v58) (by decide)).symm
    | ⟨1, _⟩ =>
      exact (((dat3 (asV Y) c).arrAt_in 1 rfl _).trans (A_eq3 (asV Y) c 1)).trans
        (op3_result_ne (Y c) (r := main_v76) (by decide)).symm
    | ⟨2, _⟩ =>
      exact (((dat3 (asV Y) c).arrAt_in 2 rfl _).trans (A_eq3 (asV Y) c 2)).trans
        (op3_result_ne (Y c) (r := main_v77) (by decide)).symm
    | ⟨3, _⟩ =>
      exact (((dat3 (asV Y) c).arrAt_in 3 rfl _).trans (A_eq3 (asV Y) c 3)).trans
        (op3_result_ne (Y c) (r := main_v62) (by decide)).symm
    | ⟨4, _⟩ =>
      exact (((dat3 (asV Y) c).arrAt_in 4 rfl _).trans (A_eq3 (asV Y) c 4)).trans
        (op3_result_ne (Y c) (r := main_v78) (by decide)).symm
    | ⟨5, _⟩ =>
      exact (((dat3 (asV Y) c).arrAt_in 5 rfl _).trans (A_eq3 (asV Y) c 5)).trans
        (op3_result_ne (Y c) (r := main_v66) (by decide)).symm
    | ⟨6, _⟩ =>
      exact (Cert.KernelIdeal.Blocks3.final (asV Y) c).trans (op3_result (Y c)).symm
  · exact ⟨6, (Finset.mem_singleton.mp hb).symm⟩

end Regions

/-! ## The program's boundaries -/

variable (m : (ℓ : Loc nD τ sig) → Buf (Elt Ideal) ℓ) (ρ : Dev nD → PrngReg)

theorem W2_eq (c : Dev nD) : W2 m ρ c = (op0).result (W1 m ρ c) := region0 (W1 m ρ) c
theorem W4_eq (c : Dev nD) : W4 m ρ c = (op1).result (W3 m ρ c) := region1 (W3 m ρ) c
theorem W6_eq (c : Dev nD) : W6 m ρ c = (op2).result (W5 m ρ c) := region2 (W5 m ρ) c
theorem W8_eq (c : Dev nD) : W8 m ρ c = (op3).result (W7 m ρ c) := region3 (W7 m ρ) c

/-- The whole program as one line. -/
def line : List (HloOp τ sig (Elt Ideal)) :=
  hostOps0 ++ op0 :: (hostOps1 ++ op1 :: (hostOps2 ++ op2 :: (hostOps3 ++ op3 :: (hostOps4 ++ hostOps4_1))))

/-- Folding a line through an operation in its middle: the part before, the operation, the part after. -/
theorem after_through (l₁ : List (HloOp τ sig (Elt Ideal))) (op : HloOp τ sig (Elt Ideal)) (l₂ : List (HloOp τ sig (Elt Ideal)))
    (X : Valuation τ sig (Elt Ideal)) : after (l₁ ++ op :: l₂) X = after l₂ (op.result (after l₁ X)) := by
  rw [after_append, after_cons]

/-- The contents at the last boundary are the launch memory folded through the line. -/
theorem W10_eq (c : Dev nD) : W10 m ρ c = after line (W0 m ρ c) := by
  unfold line
  rw [after_through, after_through, after_through, after_through, after_append]
  show after hostOps4_1 (after hostOps4 (W8 m ρ c)) = _
  rw [W8_eq]
  show after hostOps4_1 (after hostOps4 (op3.result (after hostOps3 (W6 m ρ c)))) = _
  rw [W6_eq]
  show after hostOps4_1 (after hostOps4 (op3.result (after hostOps3 (op2.result (after hostOps2 (W4 m ρ c)))))) = _
  rw [W4_eq]
  show after hostOps4_1 (after hostOps4 (op3.result (after hostOps3 (op2.result (after hostOps2 (op1.result (after hostOps1 (W2 m ρ c)))))))) = _
  rw [W2_eq]

end Cert.KernelIdeal.Net

end
-- ==== Proof.RefValue.lean ====
/-
  The reference's layers.

  In the reference every graph layer is spelt out on the host: the node features plus the neighbour sums, a product
  with the first weight, its bias vector made a row and spread over the 10000 rows, a maximum with 0, a product with the
  second weight, its bias, a maximum with 0. At the reference's own dimension records and shapes that chain is the layer
  of the specification: once for the first layer (128 input features) and once for the three that follow (512).
-/
import proofs.«145456_j32830730011134_1_alg».proof.Proof.Gen.ReferenceIdeal.Run
import proofs.«145456_j32830730011134_1_alg».proof.Proof.GinLayer

noncomputable section

namespace Cert.ReferenceIdeal.RefValue

open Cert.ReferenceIdeal Cert.ReferenceIdeal.Gen Idealize.ShloMosaic Idealize.ShloMosaic.TcCoe

/-- The reference's chain for a layer with 128 input features — the sum h + aggr, a dot_general, the bias spread over the rows, the
    maximum with 0, and the same three once more — is the layer. -/
theorem layer_first (h aggr : FVec Ideal S10000x128 .f32) (w1 : FVec Ideal S128x512 .f32) (b1 : FVec Ideal S512 .f32)
    (w2 : FVec Ideal S512x512 .f32) (b2 : FVec Ideal S512 .f32) :
    maximumf (addf (Host.dotGeneral (F := Ideal) dot_S10000x512_S512x512_S10000x512_1_0_0_1_n_n none
          (maximumf (addf (Host.dotGeneral (F := Ideal) dot_S10000x128_S128x512_S10000x512_1_0_0_1_n_n none (addf h aggr) w1)
              (broadcastInDim S10000x512 ![0, 1] bcast_S1x512_S10000x512_0_1 (broadcastInDim S1x512 ![1] bcast_S512_S1x512_1 b1)))
            (broadcastInDim S10000x512 ![] bcast_S_S10000x512 (constant (F := Ideal) S_ .f32 0x00000000#32)))
          w2)
        (broadcastInDim S10000x512 ![0, 1] bcast_S1x512_S10000x512_0_1 (broadcastInDim S1x512 ![1] bcast_S512_S1x512_1 b2)))
      (broadcastInDim S10000x512 ![] bcast_S_S10000x512 (constant (F := Ideal) S_ .f32 0x00000000#32))
      = Cert.GinLayer.layer 10000 128 512 h aggr w1 b1 w2 b2 :=
  Cert.GinLayer.layer_of_dotGeneral 10000 128 512 h aggr w1 b1 w2 b2 _ _ _

/-- The reference's chain for a layer with 512 input features — the sum h + aggr, a dot_general, the bias spread over the rows, the
    maximum with 0, and the same three once more — is the layer. -/
theorem layer_next (h aggr : FVec Ideal S10000x512 .f32) (w1 : FVec Ideal S512x512 .f32) (b1 : FVec Ideal S512 .f32)
    (w2 : FVec Ideal S512x512 .f32) (b2 : FVec Ideal S512 .f32) :
    maximumf (addf (Host.dotGeneral (F := Ideal) dot_S10000x512_S512x512_S10000x512_1_0_0_1_n_n none
          (maximumf (addf (Host.dotGeneral (F := Ideal) dot_S10000x512_S512x512_S10000x512_1_0_0_1_n_n none (addf h aggr) w1)
              (broadcastInDim S10000x512 ![0, 1] bcast_S1x512_S10000x512_0_1 (broadcastInDim S1x512 ![1] bcast_S512_S1x512_1 b1)))
            (broadcastInDim S10000x512 ![] bcast_S_S10000x512 (constant (F := Ideal) S_ .f32 0x00000000#32)))
          w2)
        (broadcastInDim S10000x512 ![0, 1] bcast_S1x512_S10000x512_0_1 (broadcastInDim S1x512 ![1] bcast_S512_S1x512_1 b2)))
      (broadcastInDim S10000x512 ![] bcast_S_S10000x512 (constant (F := Ideal) S_ .f32 0x00000000#32))
      = Cert.GinLayer.layer 10000 512 512 h aggr w1 b1 w2 b2 :=
  Cert.GinLayer.layer_of_dotGeneral 10000 512 512 h aggr w1 b1 w2 b2 _ _ _

end Cert.ReferenceIdeal.RefValue

end
-- ==== Proof.Bridge.lean ====
/-
  The two programs compute one function of the arguments.

  The network's run ends with its result at the launch memory folded through its one line of operations: the host
  stretches as printed and, for each region, the layer of six arrays. The reference's run ends at its operations'
  composed term. Read on the same arguments, the reference's term becomes the network's once each of its four chains
  "features plus neighbour sums, product, bias, maximum with 0, product, bias, maximum with 0" is recognised as the
  layer: everything else — the slices of the edge list, the gathers and scatter-adds that form the neighbour sums, the
  slices of the stacked weights, the pooling, the last product and the log-softmax — is the same operation on both sides,
  and the network's narrowing of the weights to a 16-bit format is the identity on the extended reals.
-/
import proofs.«145456_j32830730011134_1_alg».proof.Proof.KFold
import proofs.«145456_j32830730011134_1_alg».proof.Proof.RefValue

set_option maxRecDepth 16384

noncomputable section

namespace Cert.Proof.Bridge

open Idealize.ShloMosaic Idealize.ShloMosaic.TcCoe Idealize.ShloMosaic.StableHlo Idealize.SL.Sem

set_option backward.isDefEq.respectTransparency.types false in
set_option maxHeartbeats 40000000 in
/-- The reference's result term, on a memory agreeing with the network's on the thirteen arguments, is what the network's
    line leaves in its result buffer. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v136 m' c
      = after Cert.KernelIdeal.Net.line (Cert.KernelIdeal.Gen.W0 m ρ c) (Proc.devRef .tc Cert.KernelIdeal.main_v96) := by
  symm
  unfold Cert.KernelIdeal.Net.line
  simp (disch := decide) only [after_append, after_cons, after_nil,
    Cert.KernelIdeal.Gen.hostOps0, Cert.KernelIdeal.Gen.hostOps1, Cert.KernelIdeal.Gen.hostOps2, Cert.KernelIdeal.Gen.hostOps3,
    Cert.KernelIdeal.Gen.hostOps4, Cert.KernelIdeal.Gen.hostOps4_1,
    Cert.KernelIdeal.Net.op0_result', Cert.KernelIdeal.Net.op1_result', Cert.KernelIdeal.Net.op2_result', Cert.KernelIdeal.Net.op3_result',
    Cert.KernelIdeal.Net.op0_result_ne', Cert.KernelIdeal.Net.op1_result_ne', Cert.KernelIdeal.Net.op2_result_ne', Cert.KernelIdeal.Net.op3_result_ne',
    nullary_result', unary_result', binary_result', ternary_result', quaternary_result', reshape_result',
    nullary_result_ne', unary_result_ne', binary_result_ne', ternary_result_ne', quaternary_result_ne', reshape_result_ne']
  unfold Cert.ReferenceIdeal.Value.res_main_v136
  rw [h0, h1, h2, h3, h4, h5, h6, h7, h8, h9, h10, h11, h12]
  rw [Cert.ReferenceIdeal.RefValue.layer_next]
  rw [Cert.ReferenceIdeal.RefValue.layer_next]
  rw [Cert.ReferenceIdeal.RefValue.layer_next]
  rw [Cert.ReferenceIdeal.RefValue.layer_first]
  rfl

end Cert.Proof.Bridge

end
-- ==== Proof.lean ====
/-
  A four-layer graph-isomorphism network with a mean pool, a linear head and a log-softmax: the tiled kernel against the
  plain reference, on the extended reals.

  Both programs form, per layer, the neighbour sums (a gather of the source nodes' features and a scatter-add at the
  destination nodes) on the host. The kernel then runs the layer's two products, biases and cut-offs at 0 in a pipelined
  region over ten blocks of 1000 node rows, the weights first narrowed to a 16-bit float format; the reference spells the
  same chain out on the host at full width. On the extended reals a change of float format is the identity, a product
  into a zero accumulator is the plain sum over the contracted axis, and a row of a layer depends only on the same row
  of the features and the sums: so each region leaves exactly the layer of the arrays it found (Blocks0 … Blocks3 over
  GinLayer), the kernel's whole program is one straight line of pure operations (KFold), and that line's result is the
  reference's composed term read on the same arguments (Bridge). No finiteness of the inputs is used: the two sides
  perform the same sums in the same order, and the claim's precondition is never opened.

  The three frame claims are the generated frames (the reference's is its generated run with the result dropped); the
  kernel's idealization rewrote nothing, so there is nothing to preserve.
-/
import proofs.«145456_j32830730011134_1_alg».proof.Defs
import proofs.«145456_j32830730011134_1_alg».proof.Proof.Gen.Kernel
import proofs.«145456_j32830730011134_1_alg».proof.Proof.Gen.Kernel.Frame
import proofs.«145456_j32830730011134_1_alg».proof.Proof.Gen.KernelIdeal
import proofs.«145456_j32830730011134_1_alg».proof.Proof.Gen.KernelIdeal.Frame
import proofs.«145456_j32830730011134_1_alg».proof.Proof.Gen.ReferenceIdeal
import proofs.«145456_j32830730011134_1_alg».proof.Proof.Gen.ReferenceIdeal.Run
import proofs.«145456_j32830730011134_1_alg».proof.Proof.Gen.Pre_finite_inputs
import proofs.«145456_j32830730011134_1_alg».proof.Proof.KRun
import proofs.«145456_j32830730011134_1_alg».proof.Proof.KFold
import proofs.«145456_j32830730011134_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the thirteen arguments both programs end, with one result: the kernel's at the launch memory
    folded through its line of operations, and the reference's composed term equal to it. -/
theorem algebraic : Cert.algebraic_KernelIdeal_ReferenceIdeal := by
  intro m ρ m' ρ' _ hagree
  refine ⟨fun c => StableHlo.after Cert.KernelIdeal.Net.line (Cert.KernelIdeal.Gen.W0 m ρ c)
    (Proc.devRef .tc Cert.KernelIdeal.main_v96), ?_, ?_⟩
  · exact (θ_run Cert.KernelIdeal.defs _ _).mono
      (fun r h c => ⟨(h c).1.trans (congrFun (Cert.KernelIdeal.Net.W10_eq m ρ c) _), (h c).2⟩)
      (Cert.KernelIdeal.Net.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    exact Cert.Proof.Bridge.result_eq m ρ m' c h0 h1 h2 h3 h4 h5 h6 h7 h8 h9 h10 h11 h12

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
